-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x64 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S50000x64 : Shape := ⟨2, ![50000, 64]⟩
abbrev S2000x128 : Shape := ⟨2, ![2000, 128]⟩
abbrev S2000x1 : Shape := ⟨2, ![2000, 1]⟩
abbrev S2000x256 : Shape := ⟨2, ![2000, 256]⟩
abbrev S2000x64 : Shape := ⟨2, ![2000, 64]⟩
abbrev S1x256 : Shape := ⟨2, ![1, 256]⟩
abbrev S800000x64 : Shape := ⟨2, ![800000, 64]⟩
abbrev S1x64 : Shape := ⟨2, ![1, 64]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x256, .bf16⟩
  | .hbm, ⟨41, _⟩ => ⟨S128x256, .bf16⟩
  | .hbm, ⟨42, _⟩ => ⟨S256x64, .bf16⟩
  | .hbm, ⟨43, _⟩ => ⟨S50000x256, .bf16⟩
  | .hbm, ⟨44, _⟩ => ⟨S50000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S256x64, .bf16⟩
  | .hbm, ⟨60, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S256x64, .bf16⟩
  | .local _ .vmem, ⟨10, _⟩ => ⟨S2000x256, .bf16⟩
  | .local _ .vmem, ⟨11, _⟩ => ⟨S2000x256, .bf16⟩
  | .local _ .vmem, ⟨12, _⟩ => ⟨S2000x64, .bf16⟩
  | .local _ .vmem, ⟨13, _⟩ => ⟨S2000x64, .bf16⟩
  | .local _ .vmem, ⟨14, _⟩ => ⟨S2000x64, .f32⟩
  | .local _ .vmem, ⟨15, _⟩ => ⟨S2000x64, .f32⟩
  | .local _ .vmem, ⟨16, _⟩ => ⟨S2000x256, .bf16⟩
  | .local _ .vmem, ⟨17, _⟩ => ⟨S2000x256, .bf16⟩
  | .local _ .vmem, ⟨18, _⟩ => ⟨S2000x1, .f32⟩
  | .local _ .vmem, ⟨19, _⟩ => ⟨S2000x1, .f32⟩
  | .local _ .vmem, ⟨20, _⟩ => ⟨S256x64, .bf16⟩
  | .local _ .vmem, ⟨21, _⟩ => ⟨S64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  shapeCasts_S2000x256_S2000x256 : S2000x256.ShapeCasts S2000x256
  broadcasts_S2000x1_S2000x64 : S2000x1.Broadcasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .bf16 = 32 ∨ (Rect.block (s := S50000x64) S2000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with every buffer named: after @main's four segments (the host operations before the
  first launch, the first launch, the host operations between the launches, the second launch) every buffer that
  is not a staging buffer holds what the fold of the segments over the launch memory leaves in it. In particular
  the result array is the second launch's output array after its last write-back.
-/
import proofs.«153411_j1168231104586_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that
    is not a staging buffer holds the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result array and at the arguments. -/
theorem run_out : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.RunAll

end
-- ==== Proof.LibGraph.lean ====
/-
  Rows gathered and rows accumulated along an edge list, read at an index, at the ideal instance
  (every float an extended real).

  An edge list gives, for every edge `e`, a source row and a destination row as signed integer words kept in
  an `E × 1` column. Gathering rows of an `N × C` matrix at the source column reads, at `(e, f)`, the matrix at
  the source row of `e` clamped into `[0, N - 1]`, column `f`. Accumulating the rows of an `E × C` matrix into an
  `N × C` matrix at the destination column adds, at `(n, f)`, the entries `(e, f)` of every edge `e` whose
  destination word, read signed, is `n`; an edge whose destination is outside `[0, N)` adds nothing. The same
  for a vector of `E` entries accumulated into a vector of `N` entries.
-/
import Idealize.ShloMosaic.PureOps.Ideal.Laws
import Idealize.ShloMosaic.Lib.ValueIdx

noncomputable section

open scoped BigOperators

namespace Cert.LibGraph

open Idealize.ShloMosaic Idealize.ShloMosaic.ValueIdx

/-- The dimension numbers of a row gather: operand `N × C`, start indices `E × 1`, result `E × C`. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a row accumulation: operand `N × C`, indices `E × 1`, updates `E × C`. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of an entry accumulation: operand `N`, indices `E × 1`, updates `E`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The edges whose destination word, read signed, is the row `n`. -/
def into {E w N : Nat} (si : IVec ⟨2, ![E, 1]⟩ w) (n : Fin N) : Finset (Fin E) :=
  Finset.univ.filter fun e => (si (ix2 e (0 : Fin 1))).toInt = (n.val : Int)

/-- The source row of edge `e`: its source word read signed and clamped into `[0, N - 1]`. -/
def srcRow {E w : Nat} (N : Nat) (hN : 0 < N) (gi : IVec ⟨2, ![E, 1]⟩ w) (e : Fin E) : Fin N :=
  ⟨min (gi (ix2 e (0 : Fin 1))).toInt.toNat (N - 1), by omega⟩

/-- A row gather read at `(e, f)`: the operand at the clamped source row of `e`, column `f`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (gi : IVec ⟨2, ![E, 1]⟩ w) (e : Fin E) (f : Fin C) :
    Host.gather (rowsGather N E C wf) x gi (ix2 e f) = x (ix2 (srcRow N hN gi e) f) := by
  have h0 : (rowsGather N E C wf).start (ix2 e f) gi 0 + (rowsGather N E C wf).batchCoord (ix2 e f) 0
      + (rowsGather N E C wf).offCoord (ix2 e f) 0 = (srcRow N hN gi e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e f) ⟨List.idxOf (0 : Fin 2) (rowsGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N E C wf).start (ix2 e f) gi 1 + (rowsGather N E C wf).batchCoord (ix2 e f) 1
      + (rowsGather N E C wf).offCoord (ix2 e f) 1 = f.val := by
    rw [GatherDims.batchCoord_eq_zero _ _ _ List.not_mem_nil]
    unfold GatherDims.start
    rw [dif_neg (show (1 : Fin 2) ∉ (rowsGather N E C wf).startIndexMap from
      fun h => absurd (congrArg Fin.val (List.mem_singleton.mp h)) Nat.one_ne_zero)]
    simp only [Nat.add_zero, Nat.zero_add]
    rfl
  unfold Host.gather
  congr 1
  funext a
  refine Fin.ext ?_
  match a with
  | ⟨0, _⟩ => exact h0
  | ⟨1, _⟩ => exact h1

/-- A scattered update lands at `i` exactly when, on every axis, its start plus its window coordinate is the
    coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrArg Fin.val (congrFun (Option.some.inj h) a)
      simp only at h1
      have h2 := hc a
      omega
    · exact absurd h (by simp)
  · intro h
    have hc : ∀ a, 0 ≤ d.start j idx a + (d.window j a : Int) ∧ d.start j idx a + (d.window j a : Int) < s.size a := by
      intro a; rw [h a]; exact ⟨by omega, by exact_mod_cast (i a).isLt⟩
    rw [dif_pos hc]
    congr 1
    funext a
    refine Fin.ext ?_
    simp only
    rw [h a]; simp

/-- For a row accumulation, the update `(e, f')` lands at `(n, f)` exactly when the destination word of `e`,
    read signed, is `n` and the columns agree. -/
theorem rows_resultIdx?_iff {N E C w : Nat}
    (wf : ScatterDims.WF ⟨2, ![N, C]⟩ ⟨2, ![E, 1]⟩ ⟨2, ![E, C]⟩ [1] [0] [0] 1)
    (si : IVec ⟨2, ![E, 1]⟩ w) (e : Fin E) (f' : Fin C) (n : Fin N) (f : Fin C) :
    (rowsScatter N E C wf).resultIdx? (ix2 e f') si = some (ix2 n f)
      ↔ (si (ix2 e (0 : Fin 1))).toInt = (n.val : Int) ∧ f' = f := by
  rw [resultIdx?_eq_some_iff]
  have hs0 : (rowsScatter N E C wf).start (ix2 e f') si 0 = (si (ix2 e (0 : Fin 1))).toInt := by
    unfold ScatterDims.start
    rw [dif_pos (show (0 : Fin 2) ∈ (rowsScatter N E C wf).scatterDimsToOperandDims from List.mem_singleton.mpr rfl)]
    have hsi : (rowsScatter N E C wf).siIdx (ix2 e f') ⟨List.idxOf (0 : Fin 2) (rowsScatter N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N E C wf).start (ix2 e f') si 1 = 0 := by
    unfold ScatterDims.start
    rw [dif_neg (show (1 : Fin 2) ∉ (rowsScatter N E C wf).scatterDimsToOperandDims from
      fun h => absurd (congrArg Fin.val (List.mem_singleton.mp h)) Nat.one_ne_zero)]
  have hw0 : (rowsScatter N E C wf).window (ix2 e f') 0 = 0 := rfl
  have hw1 : (rowsScatter N E C wf).window (ix2 e f') 1 = f'.val := rfl
  constructor
  · intro h
    have a0 : (rowsScatter N E C wf).start (ix2 e f') si 0
        + ((rowsScatter N E C wf).window (ix2 e f') 0 : Int) = (n.val : Int) := h 0
    have a1 : (rowsScatter N E C wf).start (ix2 e f') si 1
        + ((rowsScatter N E C wf).window (ix2 e f') 1 : Int) = (f.val : Int) := h 1
    rw [hs0, hw0] at a0
    rw [hs1, hw1] at a1
    refine ⟨by simpa using a0, Fin.ext ?_⟩
    have : ((f'.val : Nat) : Int) = (f.val : Int) := by simpa using a1
    exact_mod_cast this
  · rintro ⟨h0, rfl⟩ a
    match a with
    | ⟨0, _⟩ =>
      show (rowsScatter N E C wf).start (ix2 e f') si 0 + ((rowsScatter N E C wf).window (ix2 e f') 0 : Int) = _
      rw [hs0, hw0, h0]; simp
    | ⟨1, _⟩ =>
      show (rowsScatter N E C wf).start (ix2 e f') si 1 + ((rowsScatter N E C wf).window (ix2 e f') 1 : Int) = _
      rw [hs1, hw1]; simp

/-- A row accumulation read at `(n, f)`: the operand there plus the entries `(e, f)` of the edges into `n`. -/
theorem scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (si : IVec ⟨2, ![E, 1]⟩ w) (upd : FVec Ideal ⟨2, ![E, C]⟩ .f32)
    (n : Fin N) (f : Fin C) :
    Host.scatterAdd (rowsScatter N E C wf) x si upd (ix2 n f)
      = x (ix2 n f) + ∑ e ∈ into si n, upd (ix2 e f) := by
  classical
  show x (ix2 n f) + ∑ j ∈ Finset.univ.filter
      (fun j => (rowsScatter N E C wf).resultIdx? j si = some (ix2 n f)), upd j = _
  congr 1
  symm
  refine Finset.sum_bij (fun e _ => ix2 e f) ?_ ?_ ?_ ?_
  · intro e he
    rw [Finset.mem_filter]
    exact ⟨Finset.mem_univ _, (rows_resultIdx?_iff wf si e f n f).2 ⟨(Finset.mem_filter.1 he).2, rfl⟩⟩
  · intro e _ e' _ h
    exact congrFun h 0
  · intro j hj
    have hj' := (Finset.mem_filter.1 hj).2
    rw [eq_ix2 j] at hj'
    obtain ⟨h0, h1⟩ := (rows_resultIdx?_iff wf si (j 0) (j 1) n f).1 hj'
    refine ⟨j 0, Finset.mem_filter.2 ⟨Finset.mem_univ _, h0⟩, ?_⟩
    rw [← h1]; exact (eq_ix2 j).symm
  · intro e _
    rfl

/-- For an entry accumulation, the update `e` lands at `n` exactly when the destination word of `e`, read
    signed, is `n`. -/
theorem vec_resultIdx?_iff {N E w : Nat}
    (wf : ScatterDims.WF ⟨1, ![N]⟩ ⟨2, ![E, 1]⟩ ⟨1, ![E]⟩ [] [0] [0] 1)
    (si : IVec ⟨2, ![E, 1]⟩ w) (e : Fin E) (n : Fin N) :
    (vecScatter N E wf).resultIdx? (ix1 e) si = some (ix1 n)
      ↔ (si (ix2 e (0 : Fin 1))).toInt = (n.val : Int) := by
  rw [resultIdx?_eq_some_iff]
  have hs0 : (vecScatter N E wf).start (ix1 e) si 0 = (si (ix2 e (0 : Fin 1))).toInt := by
    unfold ScatterDims.start
    rw [dif_pos (show (0 : Fin 1) ∈ (vecScatter N E wf).scatterDimsToOperandDims from List.mem_singleton.mpr rfl)]
    have hsi : (vecScatter N E wf).siIdx (ix1 e) ⟨List.idxOf (0 : Fin 1) (vecScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N E wf).window (ix1 e) 0 = 0 := rfl
  constructor
  · intro h
    have a0 : (vecScatter N E wf).start (ix1 e) si 0
        + ((vecScatter N E wf).window (ix1 e) 0 : Int) = (n.val : Int) := h 0
    rw [hs0, hw0] at a0
    simpa using a0
  · intro h0 a
    match a with
    | ⟨0, _⟩ =>
      show (vecScatter N E wf).start (ix1 e) si 0 + ((vecScatter N E wf).window (ix1 e) 0 : Int) = _
      rw [hs0, hw0, h0]; simp

/-- An entry accumulation read at `n`: the operand there plus the entries of the edges into `n`. -/
theorem scatterAdd_vec_apply {N E w : Nat}
    (wf : ScatterDims.WF ⟨1, ![N]⟩ ⟨2, ![E, 1]⟩ ⟨1, ![E]⟩ [] [0] [0] 1)
    (x : FVec Ideal ⟨1, ![N]⟩ .f32) (si : IVec ⟨2, ![E, 1]⟩ w) (upd : FVec Ideal ⟨1, ![E]⟩ .f32)
    (n : Fin N) :
    Host.scatterAdd (vecScatter N E wf) x si upd (ix1 n)
      = x (ix1 n) + ∑ e ∈ into si n, upd (ix1 e) := by
  classical
  show x (ix1 n) + ∑ j ∈ Finset.univ.filter
      (fun j => (vecScatter N E wf).resultIdx? j si = some (ix1 n)), upd j = _
  congr 1
  symm
  refine Finset.sum_bij (fun e _ => ix1 e) ?_ ?_ ?_ ?_
  · intro e he
    rw [Finset.mem_filter]
    exact ⟨Finset.mem_univ _, (vec_resultIdx?_iff wf si e n).2 (Finset.mem_filter.1 he).2⟩
  · intro e _ e' _ h
    exact congrFun h 0
  · intro j hj
    have hj' := (Finset.mem_filter.1 hj).2
    rw [eq_ix1 j] at hj'
    have h0 := (vec_resultIdx?_iff wf si (j 0) n).1 hj'
    exact ⟨j 0, Finset.mem_filter.2 ⟨Finset.mem_univ _, h0⟩, (eq_ix1 j).symm⟩
  · intro e _
    rfl

end Cert.LibGraph

end
-- ==== Proof.Spec.lean ====
/-
  Two layers of mean aggregation over an edge list, written entry by entry on the extended reals, in the two
  arrangements that are compared.

  A graph on 50000 nodes is given by 800000 edges, each with a source word and a destination word. Node `n`
  collects the rows of its in-edges' source nodes; its degree is the number of in-edges, and the mean divides by
  the degree, or by one for a node without in-edges.

  First arrangement (`hA`, `outA`): the collected rows are multiplied by the left weight FIRST and the product is
  scaled by the reciprocal of the degree; in the second layer the hidden rows are projected by the left weight
  BEFORE they are collected. Second arrangement (`hB`, `outB`): the collected rows are divided by the degree and
  then multiplied by the left weight, in both layers. On real entries the two agree: scaling a row commutes with
  a matrix product, and collecting rows commutes with projecting them.
-/
import proofs.«153411_j1168231104586_2_alg».proof.Proof.LibGraph

noncomputable section

open scoped BigOperators

namespace Cert.Sage

open Idealize.ShloMosaic Idealize.ShloMosaic.ValueIdx Cert.LibGraph

/-- An extended real that is a real number. -/
def IsReal (a : EReal) : Prop := ∃ r : ℝ, a = (r : EReal)

/-- A column of 800000 edge words. -/
abbrev EdgeCol : Type := IVec ⟨2, ![800000, 1]⟩ 32

section
variable (x : Fin 50000 → Fin 128 → EReal) (wl1 wr1 : Fin 128 → Fin 256 → EReal) (b1 : Fin 256 → EReal)
  (wl2 wr2 : Fin 256 → Fin 64 → EReal) (b2 : Fin 64 → EReal) (si gi : EdgeCol)

/-- The source node of edge `e`. -/
abbrev src (e : Fin 800000) : Fin 50000 := srcRow 50000 (by decide) gi e

/-- The number of in-edges of node `n`, as a sum of ones from zero. -/
def deg (n : Fin 50000) : EReal := 0 + ∑ _e ∈ into si n, (1 : EReal)

/-- The divisor of the mean at node `n`: the degree, or one when there is no in-edge. -/
def dm (n : Fin 50000) : EReal := max (deg si n) 1

/-- The rows of the in-edges' sources, summed. -/
def agg1 (n : Fin 50000) (k : Fin 128) : EReal := 0 + ∑ e ∈ into si n, x (src gi e) k

/-! ### First arrangement -/

/-- The hidden layer: the summed rows times the left weight, scaled by the reciprocal of the divisor. -/
def hA (n : Fin 50000) (c : Fin 256) : EReal :=
  max ((((∑ k : Fin 128, agg1 x si gi n k * wl1 k c) * Ideal.div 1 (dm si n)) + ∑ k : Fin 128, x n k * wr1 k c) + b1 c) 0

/-- The hidden rows projected by the second layer's left weight. -/
def pA (s : Fin 50000) (c' : Fin 64) : EReal := ∑ k : Fin 256, hA x wl1 wr1 b1 si gi s k * wl2 k c'

/-- The projected rows of the in-edges' sources, summed. -/
def agg2A (n : Fin 50000) (c' : Fin 64) : EReal := 0 + ∑ e ∈ into si n, pA x wl1 wr1 b1 wl2 si gi (src gi e) c'

/-- The second layer before the logistic function. -/
def zA (n : Fin 50000) (c' : Fin 64) : EReal :=
  ((agg2A x wl1 wr1 b1 wl2 si gi n c' * Ideal.div 1 (dm si n)) + ∑ k : Fin 256, hA x wl1 wr1 b1 si gi n k * wr2 k c') + b2 c'

/-- The result. -/
def outA (n : Fin 50000) (c' : Fin 64) : EReal := Ideal.logistic (zA x wl1 wr1 b1 wl2 wr2 b2 si gi n c')

/-! ### Second arrangement -/

/-- The hidden layer: the mean of the rows times the left weight. -/
def hB (n : Fin 50000) (c : Fin 256) : EReal :=
  max (((∑ k : Fin 128, Ideal.div (agg1 x si gi n k) (dm si n) * wl1 k c) + ∑ k : Fin 128, x n k * wr1 k c) + b1 c) 0

/-- The hidden rows of the in-edges' sources, summed. -/
def agg2B (n : Fin 50000) (k : Fin 256) : EReal := 0 + ∑ e ∈ into si n, hB x wl1 wr1 b1 si gi (src gi e) k

/-- The second layer before the logistic function. -/
def zB (n : Fin 50000) (c' : Fin 64) : EReal :=
  ((∑ k : Fin 256, Ideal.div (agg2B x wl1 wr1 b1 si gi n k) (dm si n) * wl2 k c') + ∑ k : Fin 256, hB x wl1 wr1 b1 si gi n k * wr2 k c') + b2 c'

/-- The result. -/
def outB (n : Fin 50000) (c' : Fin 64) : EReal := Ideal.logistic (zB x wl1 wr1 b1 wl2 wr2 b2 si gi n c')

end

end Cert.Sage

end
-- ==== Proof.RefValue.lean ====
/-
  The reference's result, read entry by entry: the second arrangement of the two mean-aggregation layers.

  Every stage of the reference is read at an index built from its coordinates. The two accumulations along the
  edge list give the summed rows and the in-degree; the quotient by the broadcast degree column gives the mean;
  the two matrix products, the bias and the maximum against zero give the hidden layer; the same again, with
  the logistic function written as one over one plus the exponential of the negation, gives the result.
-/
import proofs.«153411_j1168231104586_2_alg».proof.Proof.Gen.ReferenceIdeal.Read
import proofs.«153411_j1168231104586_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibGraph

/-! ### The two float constants -/

/-- The pattern of `1.0` denotes the extended real `1`. -/
theorem ofBits_one_f32 : Ideal.ofBits .f32 0x3F800000#32 = 1 := by
  simp [Ideal.ofBits, Ideal.ieee, -EReal.coe_mul]; norm_num

/-! ### The program's dimension numbers are the row gather's and the two accumulations' -/

theorem gather128_eq : gather_S50000x128_S800000x1_S800000x128_1_0_n_n_0_1_1128
    = rowsGather 50000 800000 128 Gen.gather_S50000x128_S800000x1_S800000x128_1_0_n_n_0_1_1128_wf := rfl

theorem gather256_eq : gather_S50000x256_S800000x1_S800000x256_1_0_n_n_0_1_1256
    = rowsGather 50000 800000 256 Gen.gather_S50000x256_S800000x1_S800000x256_1_0_n_n_0_1_1256_wf := rfl

theorem scatter128_eq : scatter_S50000x128_S800000x1_S800000x128_1_0_0_1
    = rowsScatter 50000 800000 128 Gen.scatter_S50000x128_S800000x1_S800000x128_1_0_0_1_wf := rfl

theorem scatter256_eq : scatter_S50000x256_S800000x1_S800000x256_1_0_0_1
    = rowsScatter 50000 800000 256 Gen.scatter_S50000x256_S800000x1_S800000x256_1_0_0_1_wf := rfl

theorem scatterVec_eq : scatter_S50000_S800000x1_S800000_n_0_0_1
    = vecScatter 50000 800000 Gen.scatter_S50000_S800000x1_S800000_n_0_0_1_wf := rfl

/-! ### The repeated index columns are one term -/

section
variable (x1 : (⟨S2x800000, .i32⟩ : BufTy).Contents (Elt Ideal))

theorem v16_eq : val_main_v16 (F := Ideal) x1 = val_main_v12 (F := Ideal) x1 := rfl
theorem v38_eq : val_main_v38 (F := Ideal) x1 = val_main_v12 (F := Ideal) x1 := rfl
theorem v42_eq : val_main_v42 (F := Ideal) x1 = val_main_v12 (F := Ideal) x1 := rfl
theorem v35_eq : val_main_v35 (F := Ideal) x1 = val_main_v9 (F := Ideal) x1 := rfl
theorem v45_eq : val_main_v45 (F := Ideal) x1 = val_main_v19 (F := Ideal) x1 := rfl

end

/-! ### The broadcast constants at an index -/

theorem v11_apply (i : S50000x128.Idx) : val_main_v11 (F := Ideal) i = (0 : EReal) := by
  rw [val_main_v11_apply, val_main_cst_apply]; exact Ideal.ofBits_zero_f32
theorem v14_apply (i : S800000.Idx) : val_main_v14 (F := Ideal) i = (1 : EReal) := by
  rw [val_main_v14_apply, val_main_cst_1_apply]; exact ofBits_one_f32
theorem v15_apply (i : S50000.Idx) : val_main_v15 (F := Ideal) i = (0 : EReal) := by
  rw [val_main_v15_apply, val_main_cst_2_apply]; exact Ideal.ofBits_zero_f32
theorem v18_apply (i : S50000.Idx) : val_main_v18 (F := Ideal) i = (1 : EReal) := by
  rw [val_main_v18_apply, val_main_cst_3_apply]; exact ofBits_one_f32
theorem call0_v0_apply (i : S50000x256.Idx) : val_main_call0_v0 (F := Ideal) i = (0 : EReal) := by
  rw [val_main_call0_v0_apply, val_main_call0_cst_apply]; exact Ideal.ofBits_zero_f32
theorem v37_apply (i : S50000x256.Idx) : val_main_v37 (F := Ideal) i = (0 : EReal) := by
  rw [val_main_v37_apply, val_main_cst_6_apply]; exact Ideal.ofBits_zero_f32
theorem v57_apply (i : S50000x64.Idx) : val_main_v57 (F := Ideal) i = (1 : EReal) := by
  rw [val_main_v57_apply, val_main_cst_10_apply]; exact ofBits_one_f32
theorem v59_apply (i : S50000x64.Idx) : val_main_v59 (F := Ideal) i = (1 : EReal) := by
  rw [val_main_v59_apply, val_main_cst_11_apply]; exact ofBits_one_f32

section
variable (x0 : (⟨S50000x128, .f32⟩ : BufTy).Contents (Elt Ideal))
  (x1 : (⟨S2x800000, .i32⟩ : BufTy).Contents (Elt Ideal))
  (x2 x3 : (⟨S128x256, .f32⟩ : BufTy).Contents (Elt Ideal))
  (x4 : (⟨S256, .f32⟩ : BufTy).Contents (Elt Ideal))
  (x5 x6 : (⟨S256x64, .f32⟩ : BufTy).Contents (Elt Ideal))
  (x7 : (⟨S64, .f32⟩ : BufTy).Contents (Elt Ideal))

/-! ### The divisor of the mean -/

/-- The in-degree accumulated from zero, against one. -/
theorem dm_apply (n : Fin 50000) :
    val_main_v19 (F := Ideal) x1 (ix1 n) = Cert.Sage.dm (val_main_v12 (F := Ideal) x1) n := by
  have h17 : val_main_v17 (F := Ideal) x1 (ix1 n)
      = val_main_v15 (F := Ideal) (ix1 n)
        + ∑ e ∈ into (val_main_v12 (F := Ideal) x1) n, val_main_v14 (F := Ideal) (ix1 e) :=
    scatterAdd_vec_apply Gen.scatter_S50000_S800000x1_S800000_n_0_0_1_wf (val_main_v15 (F := Ideal))
      (val_main_v12 (F := Ideal) x1) (val_main_v14 (F := Ideal)) n
  rw [val_main_v19_apply, h17, v15_apply, v18_apply]
  simp only [v14_apply]
  rfl

/-! ### The summed rows -/

theorem agg1_apply (n : Fin 50000) (k : Fin 128) :
    val_main_v13 (F := Ideal) x0 x1 (ix2 n k)
      = Cert.Sage.agg1 (fun n k => x0 (ix2 n k)) (val_main_v12 (F := Ideal) x1) (val_main_v9 (F := Ideal) x1) n k := by
  have h13 : val_main_v13 (F := Ideal) x0 x1 (ix2 n k)
      = val_main_v11 (F := Ideal) (ix2 n k)
        + ∑ e ∈ into (val_main_v12 (F := Ideal) x1) n, val_main_v10 (F := Ideal) x0 x1 (ix2 e k) :=
    scatterAdd_rows_apply Gen.scatter_S50000x128_S800000x1_S800000x128_1_0_0_1_wf (val_main_v11 (F := Ideal))
      (val_main_v12 (F := Ideal) x1) (val_main_v10 (F := Ideal) x0 x1) n k
  have h10 : ∀ e : Fin 800000, val_main_v10 (F := Ideal) x0 x1 (ix2 e k)
      = x0 (ix2 (srcRow 50000 (by decide) (val_main_v9 (F := Ideal) x1) e) k) := fun e =>
    gather_rows_apply (by decide) Gen.gather_S50000x128_S800000x1_S800000x128_1_0_n_n_0_1_1128_wf x0
      (val_main_v9 (F := Ideal) x1) e k
  rw [h13, v11_apply]
  simp only [h10]
  rfl

/-! ### The mean -/

/-- The broadcast divisor column at `(n, k)` is the divisor of node `n`. -/
theorem v21_apply (n : Fin 50000) (k : Fin 128) :
    val_main_v21 (F := Ideal) x1 (ix2 n k) = Cert.Sage.dm (val_main_v12 (F := Ideal) x1) n := by
  have hi : idx_main_v20 (idx_main_v21 (ix2 n k)) = ix1 n := by
    funext a; match a with | ⟨0, _⟩ => rfl
  rw [val_main_v21_apply, val_main_v20_apply, hi, dm_apply]

theorem v22_apply (n : Fin 50000) (k : Fin 128) :
    val_main_v22 (F := Ideal) x0 x1 (ix2 n k)
      = Ideal.div (Cert.Sage.agg1 (fun n k => x0 (ix2 n k)) (val_main_v12 (F := Ideal) x1) (val_main_v9 (F := Ideal) x1) n k)
          (Cert.Sage.dm (val_main_v12 (F := Ideal) x1) n) := by
  rw [val_main_v22_apply, agg1_apply, v21_apply]
  rfl

/-! ### The hidden layer -/

theorem h_apply (n : Fin 50000) (c : Fin 256) :
    val_main_v29 (F := Ideal) x0 x1 x2 x3 x4 (ix2 n c)
      = Cert.Sage.hB (fun n k => x0 (ix2 n k)) (fun k c => x2 (ix2 k c)) (fun k c => x3 (ix2 k c)) (fun c => x4 (ix1 c))
          (val_main_v12 (F := Ideal) x1) (val_main_v9 (F := Ideal) x1) n c := by
  have hl : ∀ k : Fin 128, lidx_main_v23 (ix2 n c) k = ix2 n k := fun k => by
    funext a; match a with | ⟨0, _⟩ => rfl | ⟨1, _⟩ => rfl
  have hr : ∀ k : Fin 128, ridx_main_v23 (ix2 n c) k = ix2 k c := fun k => by
    funext a; match a with | ⟨0, _⟩ => rfl | ⟨1, _⟩ => rfl
  have hl' : ∀ k : Fin 128, lidx_main_v24 (ix2 n c) k = ix2 n k := fun k => by
    funext a; match a with | ⟨0, _⟩ => rfl | ⟨1, _⟩ => rfl
  have hr' : ∀ k : Fin 128, ridx_main_v24 (ix2 n c) k = ix2 k c := fun k => by
    funext a; match a with | ⟨0, _⟩ => rfl | ⟨1, _⟩ => rfl
  have h27 : val_main_v27 (F := Ideal) x4 (ix2 n c) = x4 (ix1 c) := by
    rw [val_main_v27_apply, val_main_v26_apply]
    refine congrArg x4 ?_
    funext a; match a with | ⟨0, _⟩ => rfl
  rw [val_main_v29_apply, val_main_v28_apply, val_main_v25_apply, val_main_v23_apply, val_main_v24_apply, h27,
    call0_v0_apply]
  simp only [hl, hr, hl', hr', v22_apply]
  rfl

/-! ### The summed hidden rows -/

theorem agg2_apply (n : Fin 50000) (k : Fin 256) :
    val_main_v39 (F := Ideal) x0 x1 x2 x3 x4 (ix2 n k)
      = Cert.Sage.agg2B (fun n k => x0 (ix2 n k)) (fun k c => x2 (ix2 k c)) (fun k c => x3 (ix2 k c)) (fun c => x4 (ix1 c))
          (val_main_v12 (F := Ideal) x1) (val_main_v9 (F := Ideal) x1) n k := by
  have h39 : val_main_v39 (F := Ideal) x0 x1 x2 x3 x4 (ix2 n k)
      = val_main_v37 (F := Ideal) (ix2 n k)
        + ∑ e ∈ into (val_main_v12 (F := Ideal) x1) n, val_main_v36 (F := Ideal) x0 x1 x2 x3 x4 (ix2 e k) :=
    scatterAdd_rows_apply Gen.scatter_S50000x256_S800000x1_S800000x256_1_0_0_1_wf (val_main_v37 (F := Ideal))
      (val_main_v12 (F := Ideal) x1) (val_main_v36 (F := Ideal) x0 x1 x2 x3 x4) n k
  have h36 : ∀ e : Fin 800000, val_main_v36 (F := Ideal) x0 x1 x2 x3 x4 (ix2 e k)
      = val_main_v29 (F := Ideal) x0 x1 x2 x3 x4
          (ix2 (srcRow 50000 (by decide) (val_main_v9 (F := Ideal) x1) e) k) := fun e =>
    gather_rows_apply (by decide) Gen.gather_S50000x256_S800000x1_S800000x256_1_0_n_n_0_1_1256_wf
      (val_main_v29 (F := Ideal) x0 x1 x2 x3 x4) (val_main_v9 (F := Ideal) x1) e k
  rw [h39, v37_apply]
  simp only [h36, h_apply]
  rfl

/-! ### The second layer -/

theorem v47_apply (n : Fin 50000) (k : Fin 256) :
    val_main_v47 (F := Ideal) x1 (ix2 n k) = Cert.Sage.dm (val_main_v12 (F := Ideal) x1) n := by
  have hi : idx_main_v46 (idx_main_v47 (ix2 n k)) = ix1 n := by
    funext a; match a with | ⟨0, _⟩ => rfl
  rw [val_main_v47_apply, val_main_v46_apply, hi, v45_eq, dm_apply]

theorem v48_apply (n : Fin 50000) (k : Fin 256) :
    val_main_v48 (F := Ideal) x0 x1 x2 x3 x4 (ix2 n k)
      = Ideal.div (Cert.Sage.agg2B (fun n k => x0 (ix2 n k)) (fun k c => x2 (ix2 k c)) (fun k c => x3 (ix2 k c)) (fun c => x4 (ix1 c))
          (val_main_v12 (F := Ideal) x1) (val_main_v9 (F := Ideal) x1) n k) (Cert.Sage.dm (val_main_v12 (F := Ideal) x1) n) := by
  rw [val_main_v48_apply, agg2_apply, v47_apply]
  rfl

theorem z_apply (n : Fin 50000) (c' : Fin 64) :
    val_main_v54 (F := Ideal) x0 x1 x2 x3 x4 x5 x6 x7 (ix2 n c')
      = Cert.Sage.zB (fun n k => x0 (ix2 n k)) (fun k c => x2 (ix2 k c)) (fun k c => x3 (ix2 k c)) (fun c => x4 (ix1 c))
          (fun k c => x5 (ix2 k c)) (fun k c => x6 (ix2 k c)) (fun c => x7 (ix1 c))
          (val_main_v12 (F := Ideal) x1) (val_main_v9 (F := Ideal) x1) n c' := by
  have hl : ∀ k : Fin 256, lidx_main_v49 (ix2 n c') k = ix2 n k := fun k => by
    funext a; match a with | ⟨0, _⟩ => rfl | ⟨1, _⟩ => rfl
  have hr : ∀ k : Fin 256, ridx_main_v49 (ix2 n c') k = ix2 k c' := fun k => by
    funext a; match a with | ⟨0, _⟩ => rfl | ⟨1, _⟩ => rfl
  have hl' : ∀ k : Fin 256, lidx_main_v50 (ix2 n c') k = ix2 n k := fun k => by
    funext a; match a with | ⟨0, _⟩ => rfl | ⟨1, _⟩ => rfl
  have hr' : ∀ k : Fin 256, ridx_main_v50 (ix2 n c') k = ix2 k c' := fun k => by
    funext a; match a with | ⟨0, _⟩ => rfl | ⟨1, _⟩ => rfl
  have h53 : val_main_v53 (F := Ideal) x7 (ix2 n c') = x7 (ix1 c') := by
    rw [val_main_v53_apply, val_main_v52_apply]
    refine congrArg x7 ?_
    funext a; match a with | ⟨0, _⟩ => rfl
  rw [val_main_v54_apply, val_main_v51_apply, val_main_v49_apply, val_main_v50_apply, h53]
  simp only [hl, hr, hl', hr', v48_apply, h_apply]
  rfl

/-! ### The result -/

/-- The reference's result at `(n, c')` is the second arrangement's. -/
theorem ref_value (n : Fin 50000) (c' : Fin 64) :
    val_main_v60 (F := Ideal) x0 x1 x2 x3 x4 x5 x6 x7 (ix2 n c')
      = Cert.Sage.outB (fun n k => x0 (ix2 n k)) (fun k c => x2 (ix2 k c)) (fun k c => x3 (ix2 k c)) (fun c => x4 (ix1 c))
          (fun k c => x5 (ix2 k c)) (fun k c => x6 (ix2 k c)) (fun c => x7 (ix1 c))
          (val_main_v12 (F := Ideal) x1) (val_main_v9 (F := Ideal) x1) n c' := by
  rw [val_main_v60_apply, val_main_v58_apply, val_main_v56_apply, val_main_v55_apply, v59_apply, v57_apply, z_apply,
    Ideal.hostDivf_def, Ideal.addf_def, Ideal.hostUnary_exp_def, Ideal.hostNegf_def, Ideal.negf_def]
  unfold Cert.Sage.outB Ideal.logistic
  rfl

end

end Cert.ReferenceIdeal.RefValue

end
-- ==== Proof.KernelHost.lean ====
/-
  What the host operations of the idealized kernel's program leave in the arrays the two launches read, at the
  ideal instance (a change of float format is the identity): before the first launch, the summed neighbour rows,
  the column of reciprocal degrees and the weights; between the launches, the projected rows of the in-edges'
  sources, summed, beside what the first launch and the earlier host operations left.
-/
import proofs.«153411_j1168231104586_2_alg».proof.Proof.Gen.KernelIdeal.Frame
import proofs.«153411_j1168231104586_2_alg».proof.Proof.RefValue
import Idealize.ShloMosaic.Lib.StableHlo.Run
import Idealize.ShloMosaic.Lib.Tactic

set_option maxRecDepth 16384

noncomputable section

open scoped BigOperators

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.LibGraph

variable (m : (ℓ : Loc nD τ sig) → Buf (Elt Ideal) ℓ) (ρ : Dev nD → PrngReg)

/-- The edge words as launched. -/
abbrev ei (c : Dev nD) : S2x800000.Idx → BitVec 32 := m ((c : Thread nD τ).loc main_arg1)

/-! ### The edge columns -/

/-- The source words of the edges. -/
def srcW (e : S2x800000.Idx → BitVec 32) : S800000.Idx → BitVec 32 :=
  shapeCast S800000 (extractStridedSlice S1x800000 ![0, 0] e slices_S2x800000_S1x800000_0_0) shapeCasts_S1x800000_S800000

/-- The destination words of the edges. -/
def dstW (e : S2x800000.Idx → BitVec 32) : S800000.Idx → BitVec 32 :=
  shapeCast S800000 (extractStridedSlice S1x800000 ![1, 0] e slices_S2x800000_S1x800000_1_0) shapeCasts_S1x800000_S800000

/-- The destination words as a column. -/
def siK (d : S800000.Idx → BitVec 32) : S800000x1.Idx → BitVec 32 :=
  broadcastInDim S800000x1 ![0] bcast_S800000_S800000x1_0 d

/-- The source words, a negative one moved up by the number of nodes, as a column. -/
def giK (s : S800000.Idx → BitVec 32) : S800000x1.Idx → BitVec 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The degree, or one, per node. -/
def dmK (d : S800000.Idx → BitVec 32) : S50000.Idx → EReal :=
  maximumf (F := Ideal) (φ := .f32)
    (Host.scatterAdd (F := Ideal) (φ := .f32) scatter_S50000_S800000x1_S800000_n_0_0_1
      (broadcastInDim S50000 ![] bcast_S_S50000 (constant (F := Ideal) S_ .f32 0x00000000#32)) (siK d)
      (broadcastInDim S800000 ![] bcast_S_S800000 (constant (F := Ideal) S_ .f32 0x3F800000#32)))
    (broadcastInDim S50000 ![] bcast_S_S50000 (constant (F := Ideal) S_ .f32 0x3F800000#32))

/-- The column of reciprocal degrees. -/
def dinvK (d : S800000.Idx → BitVec 32) : S50000x1.Idx → EReal :=
  broadcastInDim S50000x1 ![0] bcast_S50000_S50000x1_0
    (Host.divf (F := Ideal) (φ := .f32) (broadcastInDim S50000 ![] bcast_S_S50000 (constant (F := Ideal) S_ .f32 0x3F800000#32)) (dmK d))

/-- Rows of `x` gathered at the edges' sources and accumulated at their destinations, from zero. -/
def aggK {C : Nat} (dG : GatherDims ⟨2, ![50000, C]⟩ S800000x1 ⟨2, ![800000, C]⟩) (dS : ScatterDims ⟨2, ![50000, C]⟩ S800000x1 ⟨2, ![800000, C]⟩)
    (hb : S_.BroadcastsInDim ⟨2, ![50000, C]⟩ (![] : Fin 0 → Fin 2))
    (x : (⟨2, ![50000, C]⟩ : Shape).Idx → EReal) (s d : S800000.Idx → BitVec 32) : (⟨2, ![50000, C]⟩ : Shape).Idx → EReal :=
  Host.scatterAdd (F := Ideal) (φ := .f32) dS
    (broadcastInDim ⟨2, ![50000, C]⟩ ![] hb (constant (F := Ideal) S_ .f32 0x00000000#32)) (siK d)
    (Host.gather dG x (giK s))

/-! ### Before the first launch -/

theorem V1_arg0 (c : Dev nD) : (V1 m ρ c main_arg0 : S50000x128.Idx → EReal) = m ((c : Thread nD τ).loc main_arg0) := by
  dsimp only [V1, W1, hostOps0]; after_results

theorem V1_arg4 (c : Dev nD) : (V1 m ρ c main_arg4 : S256.Idx → EReal) = m ((c : Thread nD τ).loc main_arg4) := by
  dsimp only [V1, W1, hostOps0]; after_results

theorem V1_v25 (c : Dev nD) : (V1 m ρ c main_v25 : S128x256.Idx → EReal) = m ((c : Thread nD τ).loc main_arg2) := by
  dsimp only [V1, W1, hostOps0]; after_results; rfl

theorem V1_v26 (c : Dev nD) : (V1 m ρ c main_v26 : S128x256.Idx → EReal) = m ((c : Thread nD τ).loc main_arg3) := by
  dsimp only [V1, W1, hostOps0]; after_results; rfl

theorem V1_v27 (c : Dev nD) : (V1 m ρ c main_v27 : S256x64.Idx → EReal) = m ((c : Thread nD τ).loc main_arg5) := by
  dsimp only [V1, W1, hostOps0]; after_results; rfl

theorem V1_v1 (c : Dev nD) : (V1 m ρ c main_v1 : S800000.Idx → BitVec 32) = srcW (ei m c) := by
  dsimp only [V1, W1, hostOps0]; after_results; rfl

theorem V1_v3 (c : Dev nD) : (V1 m ρ c main_v3 : S800000.Idx → BitVec 32) = dstW (ei m c) := by
  dsimp only [V1, W1, hostOps0]; after_results; rfl

/-- The column of reciprocal degrees. -/
theorem V1_v12 (c : Dev nD) : (V1 m ρ c main_v12 : S50000x1.Idx → EReal) = dinvK (dstW (ei m c)) := by
  dsimp only [V1, W1, hostOps0]; after_results; rfl

set_option maxHeartbeats 2000000 in
/-- The summed neighbour rows. -/
theorem V1_v24 (c : Dev nD) : (V1 m ρ c main_v24 : S50000x128.Idx → EReal)
    = aggK gather_S50000x128_S800000x1_S800000x128_1_0_n_n_0_1_1128 scatter_S50000x128_S800000x1_S800000x128_1_0_0_1
        bcast_S_S50000x128 (m ((c : Thread nD τ).loc main_arg0)) (srcW (ei m c)) (dstW (ei m c)) := by
  dsimp only [V1, W1, hostOps0]; after_results_simp <;> rfl

/-! ### Between the launches -/

section
variable (W : Valuation τ sig (Elt Ideal))

set_option maxHeartbeats 2000000 in
/-- The projected rows of the in-edges' sources, summed, from any contents at the first launch's exit. -/
theorem after1_v39 : (StableHlo.after hostOps1 W (Proc.devRef .tc main_v39) : S50000x64.Idx → EReal)
    = aggK (C := 64) gather_S50000x64_S800000x1_S800000x64_1_0_n_n_0_1_164 scatter_S50000x64_S800000x1_S800000x64_1_0_0_1
        bcast_S_S50000x64 (W (Proc.devRef .tc main_v28_1) : S50000x64.Idx → EReal)
        (W (Proc.devRef .tc main_v1) : S800000.Idx → BitVec 32)
        (W (Proc.devRef .tc main_v3) : S800000.Idx → BitVec 32) := by
  dsimp only [hostOps1]; after_results_simp <;> rfl

theorem after1_v40 : (StableHlo.after hostOps1 W (Proc.devRef .tc main_v40) : S256x64.Idx → EReal)
    = (W (Proc.devRef .tc main_arg6) : S256x64.Idx → EReal) := by
  dsimp only [hostOps1]; after_results_simp <;> rfl

theorem after1_v28_0 : (StableHlo.after hostOps1 W (Proc.devRef .tc main_v28_0) : S50000x256.Idx → EReal)
    = (W (Proc.devRef .tc main_v28_0) : S50000x256.Idx → EReal) := by
  dsimp only [hostOps1]; after_results_simp <;> rfl

theorem after1_v12 : (StableHlo.after hostOps1 W (Proc.devRef .tc main_v12) : S50000x1.Idx → EReal)
    = (W (Proc.devRef .tc main_v12) : S50000x1.Idx → EReal) := by
  dsimp only [hostOps1]; after_results_simp <;> rfl

theorem after1_arg7 : (StableHlo.after hostOps1 W (Proc.devRef .tc main_arg7) : S64.Idx → EReal)
    = (W (Proc.devRef .tc main_arg7) : S64.Idx → EReal) := by
  dsimp only [hostOps1]; after_results_simp <;> rfl

end

theorem V3_v39 (c : Dev nD) : (V3 m ρ c main_v39 : S50000x64.Idx → EReal)
    = aggK (C := 64) gather_S50000x64_S800000x1_S800000x64_1_0_n_n_0_1_164 scatter_S50000x64_S800000x1_S800000x64_1_0_0_1
        bcast_S_S50000x64 (W2 m ρ c (Proc.devRef .tc main_v28_1) : S50000x64.Idx → EReal)
        (W2 m ρ c (Proc.devRef .tc main_v1) : S800000.Idx → BitVec 32)
        (W2 m ρ c (Proc.devRef .tc main_v3) : S800000.Idx → BitVec 32) :=
  after1_v39 (W2 m ρ c)

theorem V3_v40 (c : Dev nD) : (V3 m ρ c main_v40 : S256x64.Idx → EReal) = (W2 m ρ c (Proc.devRef .tc main_arg6) : S256x64.Idx → EReal) :=
  after1_v40 (W2 m ρ c)

theorem V3_v28_0 (c : Dev nD) : (V3 m ρ c main_v28_0 : S50000x256.Idx → EReal) = (W2 m ρ c (Proc.devRef .tc main_v28_0) : S50000x256.Idx → EReal) :=
  after1_v28_0 (W2 m ρ c)

theorem V3_v12 (c : Dev nD) : (V3 m ρ c main_v12 : S50000x1.Idx → EReal) = (W2 m ρ c (Proc.devRef .tc main_v12) : S50000x1.Idx → EReal) :=
  after1_v12 (W2 m ρ c)

theorem V3_arg7 (c : Dev nD) : (V3 m ρ c main_arg7 : S64.Idx → EReal) = (W2 m ρ c (Proc.devRef .tc main_arg7) : S64.Idx → EReal) :=
  after1_arg7 (W2 m ρ c)

end Cert.KernelIdeal.Host

end
-- ==== Proof.KernelHostIdx.lean ====
/-
  The host stages of the idealized kernel's program read at an index: the destination column, the degree (or
  one) and its reciprocal per node, and rows gathered at the edges' sources and accumulated at their destinations.
-/
import proofs.«153411_j1168231104586_2_alg».proof.Proof.KernelHost

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.LibGraph Cert.KernelIdeal.Host
open Cert.ReferenceIdeal.RefValue (ofBits_one_f32)

/-! ### The host stages at an index -/

theorem siK_apply (d : S800000.Idx → BitVec 32) (e : Fin 800000) : siK d (ix2 e (0 : Fin 1)) = d (ix1 e) :=
  broadcastInDim_apply _ bcast_S800000_S800000x1_0 d (ix2 e (0 : Fin 1)) (ix1 e) (fun a => match a with
    | ⟨0, _⟩ => by show e.val = if (800000 : Nat) = 1 then 0 else e.val; rw [if_neg (by decide)])

theorem scatterVec_eq : scatter_S50000_S800000x1_S800000_n_0_0_1
    = vecScatter 50000 800000 Facts₀.scatter_S50000_S800000x1_S800000_n_0_0_1_wf := rfl
theorem gather128_eq : gather_S50000x128_S800000x1_S800000x128_1_0_n_n_0_1_1128
    = rowsGather 50000 800000 128 Facts₀.gather_S50000x128_S800000x1_S800000x128_1_0_n_n_0_1_1128_wf := rfl
theorem scatter128_eq : scatter_S50000x128_S800000x1_S800000x128_1_0_0_1
    = rowsScatter 50000 800000 128 Facts₀.scatter_S50000x128_S800000x1_S800000x128_1_0_0_1_wf := rfl
theorem gather64_eq : gather_S50000x64_S800000x1_S800000x64_1_0_n_n_0_1_164
    = rowsGather 50000 800000 64 Facts₀.gather_S50000x64_S800000x1_S800000x64_1_0_n_n_0_1_164_wf := rfl
theorem scatter64_eq : scatter_S50000x64_S800000x1_S800000x64_1_0_0_1
    = rowsScatter 50000 800000 64 Facts₀.scatter_S50000x64_S800000x1_S800000x64_1_0_0_1_wf := rfl

/-- A scalar constant broadcast to any shape reads the constant's value everywhere. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b :=
  (broadcastInDim_apply _ h _ i ix0 (fun a => a.elim0)).trans (constant_apply _ _)

/-- The host's quotient at an index. -/
theorem hostDivf_apply {s : Shape} (a b : FVec Ideal s .f32) (i : s.Idx) :
    Host.divf (F := Ideal) a b i = Ideal.div (a i) (b i) := rfl

/-- The degree, or one, at node `n`. -/
theorem dmK_apply (d : S800000.Idx → BitVec 32) (n : Fin 50000) : dmK d (ix1 n) = Cert.Sage.dm (siK d) n := by
  unfold dmK
  rw [maximumf_apply, scatterVec_eq, scatterAdd_vec_apply, splat_apply, splat_apply, Ideal.ofBits_zero_f32, ofBits_one_f32]
  unfold Cert.Sage.dm Cert.Sage.deg
  refine congrArg (fun t : EReal => max (0 + t) 1) (Finset.sum_congr rfl fun e _ => ?_)
  exact (splat_apply _ _ _).trans ofBits_one_f32

/-- The reciprocal degree at node `n`. -/
theorem dinvK_apply (d : S800000.Idx → BitVec 32) (n : Fin 50000) :
    dinvK d (ix2 n (0 : Fin 1)) = Ideal.div 1 (Cert.Sage.dm (siK d) n) := by
  unfold dinvK
  rw [broadcastInDim_apply _ bcast_S50000_S50000x1_0 _ (ix2 n (0 : Fin 1)) (ix1 n) (fun a => match a with
    | ⟨0, _⟩ => by show n.val = if (50000 : Nat) = 1 then 0 else n.val; rw [if_neg (by decide)]),
    hostDivf_apply, splat_apply, ofBits_one_f32, dmK_apply]

/-- Gathered and accumulated rows at `(n, f)`. -/
theorem aggK_apply {C : Nat} (wfG : GatherDims.WF ⟨2, ![50000, C]⟩ ⟨2, ![800000, 1]⟩ ⟨2, ![800000, C]⟩ [1] [0] [] [0] [] 1 ![1, C])
    (wfS : ScatterDims.WF ⟨2, ![50000, C]⟩ ⟨2, ![800000, 1]⟩ ⟨2, ![800000, C]⟩ [1] [0] [0] 1)
    (hb : S_.BroadcastsInDim ⟨2, ![50000, C]⟩ (![] : Fin 0 → Fin 2))
    (x : (⟨2, ![50000, C]⟩ : Shape).Idx → EReal) (s d : S800000.Idx → BitVec 32) (n : Fin 50000) (f : Fin C) :
    aggK (rowsGather 50000 800000 C wfG) (rowsScatter 50000 800000 C wfS) hb x s d (ix2 n f)
      = 0 + ∑ e ∈ into (siK d) n, x (ix2 (srcRow 50000 (by decide) (giK s) e) f) := by
  unfold aggK
  rw [scatterAdd_rows_apply, splat_apply, Ideal.ofBits_zero_f32]
  refine congrArg _ (Finset.sum_congr rfl fun e _ => ?_)
  exact gather_rows_apply (by decide) wfG x (giK s) e f

end Cert.KernelIdeal.Whole

end
-- ==== Proof.LibPlainDot.lean ====
/-
  A plain matrix product read at an entry, at the ideal instance (every float an extended real).

  For an `a × k` matrix and a `k × b` matrix contracted over their shared axis into the zero matrix, entry
  `(p, q)` of the product is the sum over `j` of entry `(p, j)` of the first times entry `(j, q)` of the second.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The dimension numbers of a plain matrix product: `a × k` times `k × b` into `a × b`. -/
abbrev plainDot (a k b : Nat)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The first operand's row coordinate is the result's row coordinate. -/
theorem lhs_row {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).lhsIdx i c 0).val = (i 0).val := by
  unfold DotDims.lhsIdx
  rw [dif_neg (show ¬(0 : Fin (⟨2, ![a, k]⟩ : Shape).rank) ∈ (plainDot a k b wf).lhsBatch from List.not_mem_nil),
    dif_pos (show (0 : Fin (⟨2, ![a, k]⟩ : Shape).rank) ∈ (plainDot a k b wf).lhsNonContracting from List.mem_singleton.mpr rfl)]
  rfl

/-- The second operand's column coordinate is the result's column coordinate. -/
theorem rhs_col {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).rhsIdx i c 1).val = (i 1).val := by
  unfold DotDims.rhsIdx
  rw [dif_neg (show ¬(1 : Fin (⟨2, ![k, b]⟩ : Shape).rank) ∈ (plainDot a k b wf).rhsBatch from List.not_mem_nil),
    dif_pos (show (1 : Fin (⟨2, ![k, b]⟩ : Shape).rank) ∈ (plainDot a k b wf).rhsNonContracting from List.mem_singleton.mpr rfl)]
  rfl

/-- Entry `(p, q)` of a plain matrix product accumulated into the zero matrix. -/
theorem matmul_zero_apply {a k b : Nat} {φ₁ φ₂ : FTy}
    (wf : DotDims.WF ⟨2, ![a, k]⟩ ⟨2, ![k, b]⟩ ⟨2, ![a, b]⟩ [1] [0] [0] [1] [] [])
    (l : FVec Ideal ⟨2, ![a, k]⟩ φ₁) (r : FVec Ideal ⟨2, ![k, b]⟩ φ₂) (p : Fin a) (q : Fin b) :
    FloatOps.matmul (plainDot a k b wf) none l r (constant ⟨2, ![a, b]⟩ .f32 0x00000000#32) (ix2 p q)
      = ∑ j : Fin k, l (ix2 p j) * r (ix2 j q) := by
  rw [Ideal.matmul_constant_zero_apply, ← Equiv.sum_comp (contrEquiv1 (plainDot a k b wf) k rfl rfl).symm]
  refine Finset.sum_congr rfl fun j _ => ?_
  have hj := contrEquiv1_symm_val (plainDot a k b wf) k rfl rfl j
  have el : (plainDot a k b wf).lhsIdx (ix2 p q) ((contrEquiv1 (plainDot a k b wf) k rfl rfl).symm j) = ix2 p j :=
    funext fun ax => Fin.ext (by
      match ax with
      | ⟨0, _⟩ => exact lhs_row wf _ _
      | ⟨1, _⟩ => exact ((plainDot a k b wf).lhsIdx_val_of_single rfl _ _).trans hj)
  have er : (plainDot a k b wf).rhsIdx (ix2 p q) ((contrEquiv1 (plainDot a k b wf) k rfl rfl).symm j) = ix2 j q :=
    funext fun ax => Fin.ext (by
      match ax with
      | ⟨0, _⟩ => exact ((plainDot a k b wf).rhsIdx_val_of_single rfl _ _).trans hj
      | ⟨1, _⟩ => exact rhs_col wf _ _)
  rw [el, er]

end Cert.LibPlainDot

end
-- ==== Proof.LibLayout.lean ====
/-
  Layout operations and sums along one axis of small shapes, read at an index given by coordinates, at the
  ideal instance (every float an extended real).

  A vector of length `a` kept as an `a × 1` column, and such a column broadcast along the rows of an `a × b`
  matrix, each name one entry of their operand; the sum of a matrix along its columns at row `p` is the sum
  over the column coordinate of row `p`'s entries, and the sum along its rows at column `q` the sum over the
  row coordinate of column `q`'s entries.
-/
import Idealize.ShloMosaic.PureOps.Ideal.Laws
import Idealize.ShloMosaic.Lib.ValueIdx
import Idealize.ShloMosaic.Lib.Pipeline.Value

noncomputable section

open scoped BigOperators

namespace Cert.LibLayout

open Idealize.ShloMosaic Idealize.ShloMosaic.ValueIdx

/-! ## A column of row values -/

section Layout
variable {α : Type}

/-- A vector of length `a` cast to an `a × 1` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to an `a × b` matrix reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix -/

/-- The sum along the columns of a matrix, at row `p`: the sum of row `p`'s entries. -/
theorem sumCols_apply {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction (F := Ideal) .add [1] ⟨1, ![n0]⟩ src 0x00000000#32 h hφ hacc (ix1 p)
      = ∑ k : Fin n1, src (ix2 p k) :=
  (Ideal.multiReduction_add_single src _ h hφ hacc (ix1 p)).trans
    (Finset.sum_congr rfl fun k _ => congrArg src (funext fun c => Fin.ext (by
      match c with
      | ⟨0, _⟩ => rfl
      | ⟨1, _⟩ => rfl)))

/-- The sum along the rows of a matrix, at column `q`: the sum of column `q`'s entries. -/
theorem sumRows_apply {n0 n1 : ℕ} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction (F := Ideal) .add [0] ⟨1, ![n1]⟩ src 0x00000000#32 h hφ hacc (ix1 q)
      = ∑ k : Fin n0, src (ix2 k q) :=
  (Ideal.multiReduction_add_single src _ h hφ hacc (ix1 q)).trans
    (Finset.sum_congr rfl fun k _ => congrArg src (funext fun c => Fin.ext (by
      match c with
      | ⟨0, _⟩ => rfl
      | ⟨1, _⟩ => rfl)))

end Cert.LibLayout

end
-- ==== Proof.KernelPay.lean ====
/-
  What the two kernel bodies compute, entry by entry, at the ideal instance (every float an extended real; a
  change of float format is the identity).

  First body, on a block of 2000 rows: entry `(r, c)` of the hidden block is the larger of zero and
  `((∑ k, a[r,k]·wl[k,c]) · d[r] + ∑ k, s[r,k]·wr[k,c]) + b[c]`, where `a` is the block of summed neighbour rows,
  `s` the block of the nodes' own rows and `d` the column of reciprocal degrees; entry `(r, c')` of the projected
  block is `∑ k, hidden[r,k]·wp[k,c']`. Second body: entry `(r, c')` is the logistic function of
  `(a[r,c']·d[r] + ∑ k, h[r,k]·wr[k,c']) + b[c']`.
-/
import proofs.«153411_j1168231104586_2_alg».proof.Proof.Gen.KernelIdeal.Skeleton
import proofs.«153411_j1168231104586_2_alg».proof.Proof.LibPlainDot
import proofs.«153411_j1168231104586_2_alg».proof.Proof.LibLayout
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx
open Cert.LibPlainDot Cert.LibLayout

theorem dot1_eq : dot_S2000x128_S128x256_S2000x256_1_0_0_1_n_n
    = plainDot 2000 128 256 Facts₀.dot_S2000x128_S128x256_S2000x256_1_0_0_1_n_n_wf := rfl

theorem dot2_eq : dot_S2000x256_S256x64_S2000x64_1_0_0_1_n_n
    = plainDot 2000 256 64 Facts₀.dot_S2000x256_S256x64_S2000x64_1_0_0_1_n_n_wf := rfl

/-- The hidden block at `(r, c)`. -/
theorem pay1_apply (v0 v3 : FVec Ideal S2000x128 .f32) (v5 v7 : FVec Ideal S128x256 .bf16)
    (v9 : FVec Ideal S2000x1 .f32) (v16 : FVec Ideal S256 .f32) (r : Fin 2000) (c : Fin 256) :
    k0_pay1 (F := Ideal) v0 v3 v5 v7 v9 v16 (ix2 r c)
      = max ((((∑ k : Fin 128, v0 (ix2 r k) * v5 (ix2 k c)) * v9 (ix2 r (0 : Fin 1)))
          + ∑ k : Fin 128, v3 (ix2 r k) * v7 (ix2 k c)) + v16 (ix1 c)) 0 := by
  unfold k0_pay1
  simp only [shapeCast_self]
  rw [maximumf_apply, addf_apply, addf_apply, mulf_apply, broadcast_apply]
  rw [dot1_eq]
  simp only [matmul]
  rw [matmul_zero_apply, matmul_zero_apply, broadcastTo_a1_ab_apply, broadcastTo_1b_ab_apply, shapeCast_a_1a_apply,
    Ideal.ofBits_def, Ideal.ofBits_zero_f32]
  simp only [truncf_apply]

/-- The stored hidden block is the hidden block (the narrowing is the identity). -/
theorem pay2_eq (v0 v3 : FVec Ideal S2000x128 .f32) (v5 v7 : FVec Ideal S128x256 .bf16)
    (v9 : FVec Ideal S2000x1 .f32) (v16 : FVec Ideal S256 .f32) :
    (k0_pay2 (F := Ideal) v0 v3 v5 v7 v9 v16 : S2000x256.Idx → EReal) = k0_pay1 (F := Ideal) v0 v3 v5 v7 v9 v16 := rfl

/-- The projected block at `(r, c')`. -/
theorem pay3_apply (v0 v3 : FVec Ideal S2000x128 .f32) (v5 v7 : FVec Ideal S128x256 .bf16)
    (v9 : FVec Ideal S2000x1 .f32) (v16 : FVec Ideal S256 .f32) (v25 : FVec Ideal S256x64 .bf16) (r : Fin 2000) (c' : Fin 64) :
    k0_pay3 (F := Ideal) v0 v3 v5 v7 v9 v16 v25 (ix2 r c')
      = ∑ k : Fin 256, k0_pay1 (F := Ideal) v0 v3 v5 v7 v9 v16 (ix2 r k) * v25 (ix2 k c') := by
  unfold k0_pay3
  simp only [shapeCast_self]
  rw [truncf_apply, dot2_eq]
  simp only [matmul]
  rw [matmul_zero_apply]
  simp only [truncf_apply]

/-- The second body's block at `(r, c')`. -/
theorem k1_pay1_apply (v0 : FVec Ideal S2000x64 .f32) (v2 : FVec Ideal S2000x256 .bf16) (v4 : FVec Ideal S256x64 .bf16)
    (v6 : FVec Ideal S2000x1 .f32) (v12 : FVec Ideal S64 .f32) (r : Fin 2000) (c' : Fin 64) :
    k1_pay1 (F := Ideal) v0 v2 v4 v6 v12 (ix2 r c')
      = Ideal.logistic (((v0 (ix2 r c') * v6 (ix2 r (0 : Fin 1))) + ∑ k : Fin 256, v2 (ix2 r k) * v4 (ix2 k c')) + v12 (ix1 c')) := by
  unfold k1_pay1
  simp only [shapeCast_self]
  show FloatOps.logistic _ = _
  rw [Ideal.logistic_def, addf_apply, addf_apply, mulf_apply, dot2_eq]
  simp only [matmul]
  rw [matmul_zero_apply, broadcastTo_a1_ab_apply, broadcastTo_1b_ab_apply, shapeCast_a_1a_apply]

end Cert.KernelIdeal.Pay

end
-- ==== Proof.KernelRegion0.lean ====
/-
  The first launch, read as two whole-array functions of the arrays it finds: 25 blocks of 2000 rows each; block
  `t` of the hidden array is the first body's hidden block of rows `2000·t … 2000·t + 1999` of the summed
  neighbour rows, of the nodes' own rows and of the reciprocal-degree column, with the whole weight matrices and
  bias; block `t` of the projected array is the hidden block times the whole projection matrix. The blocks tile
  the 50000 rows, so after the last write-back each output array is that function at every index.
-/
import proofs.«153411_j1168231104586_2_alg».proof.Proof.Gen.KernelIdeal.Frame
import proofs.«153411_j1168231104586_2_alg».proof.Proof.KernelPay
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.KernelIdeal.Pay
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The hidden layer at node `n`, column `c`, from whole arrays. -/
def hid (A X : S50000x128.Idx → EReal) (D : S50000x1.Idx → EReal) (WL WR : S128x256.Idx → EReal) (B : S256.Idx → EReal)
    (n : Fin 50000) (c : Fin 256) : EReal :=
  max ((((∑ k : Fin 128, A (ix2 n k) * WL (ix2 k c)) * D (ix2 n (0 : Fin 1)))
    + ∑ k : Fin 128, X (ix2 n k) * WR (ix2 k c)) + B (ix1 c)) 0

/-- The hidden array. -/
def Hid (A X : S50000x128.Idx → EReal) (D : S50000x1.Idx → EReal) (WL WR : S128x256.Idx → EReal) (B : S256.Idx → EReal) :
    S50000x256.Idx → EReal := fun i => hid A X D WL WR B (i 0) (i 1)

/-- The projected array: the hidden array times the projection matrix. -/
def Proj (H : S50000x256.Idx → EReal) (WP : S256x64.Idx → EReal) : S50000x64.Idx → EReal :=
  fun i => ∑ k : Fin 256, H (ix2 (i 0) k) * WP (ix2 k (i 1))

/-- Where each window's block sits at grid point `t`: the row-blocked windows at block row `t`, the whole-array
    windows at the origin (decided over the 25 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ### Each window's block at grid point `t`, read off its array -/

theorem N25 : cfg0.N = 25 := N_0

/-- Block `t` of the summed neighbour rows: rows `2000·t + r`. -/
theorem blk0_apply (c : Dev nD) (t : Fin cfg0.N) (r : Fin 2000) (k : Fin 128) (n : Fin 50000) (hn : n.val = 2000 * t.val + r.val) :
    (iblk0 V c 0 t : S2000x128.Idx → EReal) (ix2 r k) = (V c main_v24 : S50000x128.Idx → EReal) (ix2 n k) := by
  unfold iblk0
  rw [View.read_apply]
  show (V c main_v24 : S50000x128.Idx → EReal) _ = _
  refine congrArg _ (funext fun a => Fin.ext ?_)
  obtain ⟨e0, e1, -⟩ := idx_facts t
  match a with
  | ⟨0, _⟩ => show win0_0.index t (0 : Fin 2) * 2000 + 1 * r.val = n.val; rw [e0, hn]; omega
  | ⟨1, _⟩ => show win0_0.index t (1 : Fin 2) * 128 + 1 * k.val = k.val; rw [e1]; omega

/-- Block `t` of the nodes' own rows. -/
theorem blk1_apply (c : Dev nD) (t : Fin cfg0.N) (r : Fin 2000) (k : Fin 128) (n : Fin 50000) (hn : n.val = 2000 * t.val + r.val) :
    (iblk0 V c 1 t : S2000x128.Idx → EReal) (ix2 r k) = (V c main_arg0 : S50000x128.Idx → EReal) (ix2 n k) := by
  unfold iblk0
  rw [View.read_apply]
  show (V c main_arg0 : S50000x128.Idx → EReal) _ = _
  refine congrArg _ (funext fun a => Fin.ext ?_)
  obtain ⟨-, -, e0, e1, -⟩ := idx_facts t
  match a with
  | ⟨0, _⟩ => show win0_1.index t (0 : Fin 2) * 2000 + 1 * r.val = n.val; rw [e0, hn]; omega
  | ⟨1, _⟩ => show win0_1.index t (1 : Fin 2) * 128 + 1 * k.val = k.val; rw [e1]; omega

/-- Block `t` of the reciprocal-degree column. -/
theorem blk2_apply (c : Dev nD) (t : Fin cfg0.N) (r : Fin 2000) (n : Fin 50000) (hn : n.val = 2000 * t.val + r.val) :
    (iblk0 V c 2 t : S2000x1.Idx → EReal) (ix2 r (0 : Fin 1)) = (V c main_v12 : S50000x1.Idx → EReal) (ix2 n (0 : Fin 1)) := by
  unfold iblk0
  rw [View.read_apply]
  show (V c main_v12 : S50000x1.Idx → EReal) _ = _
  refine congrArg _ (funext fun a => Fin.ext ?_)
  obtain ⟨-, -, -, -, e0, e1, -⟩ := idx_facts t
  match a with
  | ⟨0, _⟩ => show win0_2.index t (0 : Fin 2) * 2000 + 1 * r.val = n.val; rw [e0, hn]; omega
  | ⟨1, _⟩ => show win0_2.index t (1 : Fin 2) * 1 + 1 * 0 = 0; rw [e1]

/-- The left weight matrix, whole at every point. -/
theorem blk3_apply (c : Dev nD) (t : Fin cfg0.N) (k : Fin 128) (q : Fin 256) :
    (iblk0 V c 3 t : S128x256.Idx → EReal) (ix2 k q) = (V c main_v25 : S128x256.Idx → EReal) (ix2 k q) := by
  unfold iblk0
  rw [View.read_apply]
  show (V c main_v25 : S128x256.Idx → EReal) _ = _
  refine congrArg _ (funext fun a => Fin.ext ?_)
  obtain ⟨-, -, -, -, -, -, e0, e1, -⟩ := idx_facts t
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The right weight matrix, whole at every point. -/
theorem blk4_apply (c : Dev nD) (t : Fin cfg0.N) (k : Fin 128) (q : Fin 256) :
    (iblk0 V c 4 t : S128x256.Idx → EReal) (ix2 k q) = (V c main_v26 : S128x256.Idx → EReal) (ix2 k q) := by
  unfold iblk0
  rw [View.read_apply]
  show (V c main_v26 : S128x256.Idx → EReal) _ = _
  refine congrArg _ (funext fun a => Fin.ext ?_)
  obtain ⟨-, -, -, -, -, -, -, -, e0, e1, -⟩ := idx_facts t
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- The bias, whole at every point. -/
theorem blk5_apply (c : Dev nD) (t : Fin cfg0.N) (q : Fin 256) :
    (iblk0 V c 5 t : S256.Idx → EReal) (ix1 q) = (V c main_arg4 : S256.Idx → EReal) (ix1 q) := by
  unfold iblk0
  rw [View.read_apply]
  show (V c main_arg4 : S256.Idx → EReal) _ = _
  refine congrArg _ (funext fun a => Fin.ext ?_)
  obtain ⟨-, -, -, -, -, -, -, -, -, -, e0, -⟩ := idx_facts t
  match a with
  | ⟨0, _⟩ => show win0_5.index t (0 : Fin 1) * 256 + 1 * q.val = q.val; rw [e0]; omega

/-- The projection matrix, whole at every point. -/
theorem blk6_apply (c : Dev nD) (t : Fin cfg0.N) (k : Fin 256) (q : Fin 64) :
    (iblk0 V c 6 t : S256x64.Idx → EReal) (ix2 k q) = (V c main_v27 : S256x64.Idx → EReal) (ix2 k q) := by
  unfold iblk0
  rw [View.read_apply]
  show (V c main_v27 : S256x64.Idx → EReal) _ = _
  refine congrArg _ (funext fun a => Fin.ext ?_)
  obtain ⟨-, -, -, -, -, -, -, -, -, -, -, e0, e1, -⟩ := idx_facts t
  match a with
  | ⟨0, _⟩ => show win0_6.index t (0 : Fin 2) * 256 + 1 * k.val = k.val; rw [e0]; omega
  | ⟨1, _⟩ => show win0_6.index t (1 : Fin 2) * 64 + 1 * q.val = q.val; rw [e1]; omega

/-- The first body's hidden block at point `t` is rows `2000·t …` of the hidden array. -/
theorem pay1_blocks (c : Dev nD) (t : Fin cfg0.N) (r : Fin 2000) (q : Fin 256) (n : Fin 50000) (hn : n.val = 2000 * t.val + r.val) :
    k0_pay1 (F := Ideal) (iblk0 V c 0 t) (iblk0 V c 1 t) (iblk0 V c 3 t) (iblk0 V c 4 t) (iblk0 V c 2 t) (iblk0 V c 5 t) (ix2 r q)
      = hid (V c main_v24) (V c main_arg0) (V c main_v12) (V c main_v25) (V c main_v26) (V c main_arg4) n q := by
  rw [pay1_apply]
  unfold hid
  rw [blk2_apply V c t r n hn, blk5_apply V c t q]
  congr 3
  · congr 1
    exact Finset.sum_congr rfl fun k _ => by rw [blk0_apply V c t r k n hn, blk3_apply V c t k q]
  · exact Finset.sum_congr rfl fun k _ => by rw [blk1_apply V c t r k n hn, blk4_apply V c t k q]

theorem flushed7_eq (c : Dev nD) (t : Fin cfg0.N) :
    (dat0 V c).flushed 7 t = ((cfg0.win 7).blk t).view.read (Elt Ideal)
      (Hid (V c main_v24) (V c main_arg0) (V c main_v12) (V c main_v25) (V c main_v26) (V c main_arg4)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S128x256) hz2,
    View.ld_unit_zero (S := S2000x1) hz2, View.ld_unit_zero (S := S256) hz1]
  funext j
  obtain ⟨r, q, rfl⟩ : ∃ (r : Fin 2000) (q : Fin 256), j = ix2 r q := ⟨j 0, j 1, eq_ix2 j⟩
  have ht : t.val < 25 := lt_of_lt_of_eq t.isLt N25
  obtain ⟨-, -, -, -, -, -, -, -, -, -, -, -, -, e0, e1, -⟩ := idx_facts t
  have hemb : ((cfg0.win 7).blk t).view.emb (ix2 r q) = ix2 (⟨2000 * t.val + r.val, by omega⟩ : Fin 50000) q := by
    funext a; apply Fin.ext
    match a with
    | ⟨0, _⟩ => show win0_7.index t (0 : Fin 2) * 2000 + 1 * r.val = 2000 * t.val + r.val; rw [e0]; omega
    | ⟨1, _⟩ => show win0_7.index t (1 : Fin 2) * 256 + 1 * q.val = q.val; rw [e1]; omega
  show k0_pay2 (F := Ideal) (iblk0 V c 0 t) (iblk0 V c 1 t) (iblk0 V c 3 t) (iblk0 V c 4 t) (iblk0 V c 2 t) (iblk0 V c 5 t) (ix2 r q)
    = Hid (V c main_v24) (V c main_arg0) (V c main_v12) (V c main_v25) (V c main_v26) (V c main_arg4) (((cfg0.win 7).blk t).view.emb (ix2 r q))
  rw [hemb, pay2_eq]
  exact pay1_blocks V c t r q _ rfl

theorem flushed8_eq (c : Dev nD) (t : Fin cfg0.N) :
    (dat0 V c).flushed 8 t = ((cfg0.win 8).blk t).view.read (Elt Ideal)
      (Proj (Hid (V c main_v24) (V c main_arg0) (V c main_v12) (V c main_v25) (V c main_v26) (V c main_arg4)) (V c main_v27)) := by
  show (cfg0.win 8).cut (grid0.coords t) ((dat0 V c).after 8 t) = _
  rw [after0_8]
  unfold out0_8
  rw [View.canon_unit_zero hz2]
  simp only [View.ld_unit_zero (S := S2000x128) hz2, View.ld_unit_zero (S := S128x256) hz2,
    View.ld_unit_zero (S := S2000x1) hz2, View.ld_unit_zero (S := S256) hz1, View.ld_unit_zero (S := S256x64) hz2]
  funext j
  obtain ⟨r, q, rfl⟩ : ∃ (r : Fin 2000) (q : Fin 64), j = ix2 r q := ⟨j 0, j 1, eq_ix2 j⟩
  have ht : t.val < 25 := lt_of_lt_of_eq t.isLt N25
  obtain ⟨-, -, -, -, -, -, -, -, -, -, -, -, -, -, -, e0, e1⟩ := idx_facts t
  have hemb : ((cfg0.win 8).blk t).view.emb (ix2 r q) = ix2 (⟨2000 * t.val + r.val, by omega⟩ : Fin 50000) q := by
    funext a; apply Fin.ext
    match a with
    | ⟨0, _⟩ => show win0_8.index t (0 : Fin 2) * 2000 + 1 * r.val = 2000 * t.val + r.val; rw [e0]; omega
    | ⟨1, _⟩ => show win0_8.index t (1 : Fin 2) * 64 + 1 * q.val = q.val; rw [e1]; omega
  show k0_pay3 (F := Ideal) (iblk0 V c 0 t) (iblk0 V c 1 t) (iblk0 V c 3 t) (iblk0 V c 4 t) (iblk0 V c 2 t) (iblk0 V c 5 t) (iblk0 V c 6 t) (ix2 r q)
    = Proj (Hid (V c main_v24) (V c main_arg0) (V c main_v12) (V c main_v25) (V c main_v26) (V c main_arg4)) (V c main_v27) (((cfg0.win 8).blk t).view.emb (ix2 r q))
  rw [hemb, pay3_apply]
  show _ = ∑ k : Fin 256, Hid (V c main_v24) (V c main_arg0) (V c main_v12) (V c main_v25) (V c main_v26) (V c main_arg4) (ix2 ⟨2000 * t.val + r.val, by omega⟩ k) * (V c main_v27 : S256x64.Idx → EReal) (ix2 k q)
  exact Finset.sum_congr rfl fun k _ => by
    rw [pay1_blocks V c t r k ⟨2000 * t.val + r.val, by omega⟩ rfl, blk6_apply V c t k q]
    rfl

/-! ### The blocks tile the rows -/

theorem mem_blk7 (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v28_0).slice (win0_7.rect t)).set ↔ _
  rw [View.set_slice_whole, Rect.mem_set_unit]
  exact Iff.rfl

theorem mem_blk8 (t : Fin cfg0.N) (i : S50000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v28_1).slice (win0_8.rect t)).set ↔ _
  rw [View.set_slice_whole, Rect.mem_set_unit]
  exact Iff.rfl

theorem cover7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ : ∃ t : Fin cfg0.N, t.val = (i 0).val / 2000 := ⟨⟨(i 0).val / 2000, by rw [N25]; omega⟩, rfl⟩
  refine ⟨t, flush0_7 t, ?_⟩
  rw [mem_blk7]
  obtain ⟨-, -, -, -, -, -, -, -, -, -, -, -, -, e0, e1, -⟩ := idx_facts t
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 256 ≤ (i 1).val ∧ (i 1).val < win0_7.index t (1 : Fin 2) * 256 + 256; rw [e1]; omega

theorem cover8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ : ∃ t : Fin cfg0.N, t.val = (i 0).val / 2000 := ⟨⟨(i 0).val / 2000, by rw [N25]; omega⟩, rfl⟩
  refine ⟨t, flush0_8 t, ?_⟩
  rw [mem_blk8]
  obtain ⟨-, -, -, -, -, -, -, -, -, -, -, -, -, -, -, e0, e1⟩ := idx_facts t
  intro a
  match a with
  | ⟨0, _⟩ => show win0_8.index t (0 : Fin 2) * 2000 ≤ (i 0).val ∧ (i 0).val < win0_8.index t (0 : Fin 2) * 2000 + 2000; rw [e0, ht]; omega
  | ⟨1, _⟩ => show win0_8.index t (1 : Fin 2) * 64 ≤ (i 1).val ∧ (i 1).val < win0_8.index t (1 : Fin 2) * 64 + 64; rw [e1]; omega

/-- After the last write-back the hidden array is the hidden function of the arrays the launch found. -/
theorem final7 (c : Dev nD) : (dat0 V c).arrAt 7 cfg0.N
    = Hid (V c main_v24) (V c main_arg0) (V c main_v12) (V c main_v25) (V c main_v26) (V c main_arg4) :=
  (dat0 V c).arrAt_eq_of_cover 7 _ (fun t _ => flushed7_eq V c t) cover7

/-- After the last write-back the projected array is the hidden array times the projection matrix. -/
theorem final8 (c : Dev nD) : (dat0 V c).arrAt 8 cfg0.N
    = Proj (Hid (V c main_v24) (V c main_arg0) (V c main_v12) (V c main_v25) (V c main_v26) (V c main_arg4)) (V c main_v27) :=
  (dat0 V c).arrAt_eq_of_cover 8 _ (fun t _ => flushed8_eq V c t) cover8

end Cert.KernelIdeal.Region0

end
-- ==== Proof.KernelRegion1.lean ====
/-
  The second launch, read as one whole-array function of the arrays it finds: 25 blocks of 2000 rows; block `t` of
  the result is the second body's block of rows `2000·t … 2000·t + 1999` of the summed projected rows, of the
  hidden rows and of the reciprocal-degree column, with the whole right weight matrix and bias. The blocks tile
  the 50000 rows, so after the last write-back the result array is that function at every index.
-/
import proofs.«153411_j1168231104586_2_alg».proof.Proof.Gen.KernelIdeal.Frame
import proofs.«153411_j1168231104586_2_alg».proof.Proof.KernelPay
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.KernelIdeal.Pay
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The result at node `n`, column `c'`, from whole arrays. -/
def res (A : S50000x64.Idx → EReal) (H : S50000x256.Idx → EReal) (D : S50000x1.Idx → EReal) (WR : S256x64.Idx → EReal)
    (B : S64.Idx → EReal) (n : Fin 50000) (c' : Fin 64) : EReal :=
  Ideal.logistic (((A (ix2 n c') * D (ix2 n (0 : Fin 1))) + ∑ k : Fin 256, H (ix2 n k) * WR (ix2 k c')) + B (ix1 c'))

/-- The result array. -/
def Res (A : S50000x64.Idx → EReal) (H : S50000x256.Idx → EReal) (D : S50000x1.Idx → EReal) (WR : S256x64.Idx → EReal)
    (B : S64.Idx → EReal) : S50000x64.Idx → EReal := fun i => res A H D WR B (i 0) (i 1)

/-- Where each window's block sits at grid point `t` (decided over the 25 points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem N25 : cfg1.N = 25 := N_1

theorem blk0_apply (c : Dev nD) (t : Fin cfg1.N) (r : Fin 2000) (q : Fin 64) (n : Fin 50000) (hn : n.val = 2000 * t.val + r.val) :
    (iblk1 V c 0 t : S2000x64.Idx → EReal) (ix2 r q) = (V c main_v39 : S50000x64.Idx → EReal) (ix2 n q) := by
  unfold iblk1
  rw [View.read_apply]
  show (V c main_v39 : S50000x64.Idx → EReal) _ = _
  refine congrArg _ (funext fun a => Fin.ext ?_)
  obtain ⟨e0, e1, -⟩ := idx_facts t
  match a with
  | ⟨0, _⟩ => show win1_0.index t (0 : Fin 2) * 2000 + 1 * r.val = n.val; rw [e0, hn]; omega
  | ⟨1, _⟩ => show win1_0.index t (1 : Fin 2) * 64 + 1 * q.val = q.val; rw [e1]; omega

theorem blk1_apply (c : Dev nD) (t : Fin cfg1.N) (r : Fin 2000) (k : Fin 256) (n : Fin 50000) (hn : n.val = 2000 * t.val + r.val) :
    (iblk1 V c 1 t : S2000x256.Idx → EReal) (ix2 r k) = (V c main_v28_0 : S50000x256.Idx → EReal) (ix2 n k) := by
  unfold iblk1
  rw [View.read_apply]
  show (V c main_v28_0 : S50000x256.Idx → EReal) _ = _
  refine congrArg _ (funext fun a => Fin.ext ?_)
  obtain ⟨-, -, e0, e1, -⟩ := idx_facts t
  match a with
  | ⟨0, _⟩ => show win1_1.index t (0 : Fin 2) * 2000 + 1 * r.val = n.val; rw [e0, hn]; omega
  | ⟨1, _⟩ => show win1_1.index t (1 : Fin 2) * 256 + 1 * k.val = k.val; rw [e1]; omega

theorem blk2_apply (c : Dev nD) (t : Fin cfg1.N) (r : Fin 2000) (n : Fin 50000) (hn : n.val = 2000 * t.val + r.val) :
    (iblk1 V c 2 t : S2000x1.Idx → EReal) (ix2 r (0 : Fin 1)) = (V c main_v12 : S50000x1.Idx → EReal) (ix2 n (0 : Fin 1)) := by
  unfold iblk1
  rw [View.read_apply]
  show (V c main_v12 : S50000x1.Idx → EReal) _ = _
  refine congrArg _ (funext fun a => Fin.ext ?_)
  obtain ⟨-, -, -, -, e0, e1, -⟩ := idx_facts t
  match a with
  | ⟨0, _⟩ => show win1_2.index t (0 : Fin 2) * 2000 + 1 * r.val = n.val; rw [e0, hn]; omega
  | ⟨1, _⟩ => show win1_2.index t (1 : Fin 2) * 1 + 1 * 0 = 0; rw [e1]

theorem blk3_apply (c : Dev nD) (t : Fin cfg1.N) (k : Fin 256) (q : Fin 64) :
    (iblk1 V c 3 t : S256x64.Idx → EReal) (ix2 k q) = (V c main_v40 : S256x64.Idx → EReal) (ix2 k q) := by
  unfold iblk1
  rw [View.read_apply]
  show (V c main_v40 : S256x64.Idx → EReal) _ = _
  refine congrArg _ (funext fun a => Fin.ext ?_)
  obtain ⟨-, -, -, -, -, -, e0, e1, -⟩ := idx_facts t
  match a with
  | ⟨0, _⟩ => show win1_3.index t (0 : Fin 2) * 256 + 1 * k.val = k.val; rw [e0]; omega
  | ⟨1, _⟩ => show win1_3.index t (1 : Fin 2) * 64 + 1 * q.val = q.val; rw [e1]; omega

theorem blk4_apply (c : Dev nD) (t : Fin cfg1.N) (q : Fin 64) :
    (iblk1 V c 4 t : S64.Idx → EReal) (ix1 q) = (V c main_arg7 : S64.Idx → EReal) (ix1 q) := by
  unfold iblk1
  rw [View.read_apply]
  show (V c main_arg7 : S64.Idx → EReal) _ = _
  refine congrArg _ (funext fun a => Fin.ext ?_)
  obtain ⟨-, -, -, -, -, -, -, -, e0, -⟩ := idx_facts t
  match a with
  | ⟨0, _⟩ => show win1_4.index t (0 : Fin 1) * 64 + 1 * q.val = q.val; rw [e0]; omega

theorem flushed5_eq (c : Dev nD) (t : Fin cfg1.N) :
    (dat1 V c).flushed 5 t = ((cfg1.win 5).blk t).view.read (Elt Ideal)
      (Res (V c main_v39) (V c main_v28_0) (V c main_v12) (V c main_v40) (V c main_arg7)) := by
  show (cfg1.win 5).cut (grid1.coords t) ((dat1 V c).after 5 t) = _
  rw [after1_5]
  unfold out1_5
  rw [View.canon_unit_zero hz2]
  simp only [View.ld_unit_zero (S := S2000x64) hz2, View.ld_unit_zero (S := S2000x256) hz2,
    View.ld_unit_zero (S := S2000x1) hz2, View.ld_unit_zero (S := S256x64) hz2, View.ld_unit_zero (S := S64) hz1]
  funext j
  obtain ⟨r, q, rfl⟩ : ∃ (r : Fin 2000) (q : Fin 64), j = ix2 r q := ⟨j 0, j 1, eq_ix2 j⟩
  have ht : t.val < 25 := lt_of_lt_of_eq t.isLt N25
  obtain ⟨-, -, -, -, -, -, -, -, -, e0, e1⟩ := idx_facts t
  have hemb : ((cfg1.win 5).blk t).view.emb (ix2 r q) = ix2 (⟨2000 * t.val + r.val, by omega⟩ : Fin 50000) q := by
    funext a; apply Fin.ext
    match a with
    | ⟨0, _⟩ => show win1_5.index t (0 : Fin 2) * 2000 + 1 * r.val = 2000 * t.val + r.val; rw [e0]; omega
    | ⟨1, _⟩ => show win1_5.index t (1 : Fin 2) * 64 + 1 * q.val = q.val; rw [e1]; omega
  show k1_pay1 (F := Ideal) (iblk1 V c 0 t) (iblk1 V c 1 t) (iblk1 V c 3 t) (iblk1 V c 2 t) (iblk1 V c 4 t) (ix2 r q)
    = Res (V c main_v39) (V c main_v28_0) (V c main_v12) (V c main_v40) (V c main_arg7) (((cfg1.win 5).blk t).view.emb (ix2 r q))
  rw [hemb, k1_pay1_apply]
  show _ = res (V c main_v39) (V c main_v28_0) (V c main_v12) (V c main_v40) (V c main_arg7) ⟨2000 * t.val + r.val, by omega⟩ q
  unfold res
  rw [blk0_apply V c t r q ⟨2000 * t.val + r.val, by omega⟩ rfl, blk2_apply V c t r ⟨2000 * t.val + r.val, by omega⟩ rfl,
    blk4_apply V c t q]
  congr 3
  exact Finset.sum_congr rfl fun k _ => by
    rw [blk1_apply V c t r k ⟨2000 * t.val + r.val, by omega⟩ rfl, blk3_apply V c t k q]

theorem mem_blk5 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v41).slice (win1_5.rect t)).set ↔ _
  rw [View.set_slice_whole, Rect.mem_set_unit]
  exact Iff.rfl

theorem cover5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 2000 := ⟨⟨(i 0).val / 2000, by rw [N25]; omega⟩, rfl⟩
  refine ⟨t, flush1_5 t, ?_⟩
  rw [mem_blk5]
  obtain ⟨-, -, -, -, -, -, -, -, -, e0, e1⟩ := idx_facts t
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 64 ≤ (i 1).val ∧ (i 1).val < win1_5.index t (1 : Fin 2) * 64 + 64; rw [e1]; omega

/-- After the last write-back the result array is the result function of the arrays the launch found. -/
theorem final5 (c : Dev nD) : (dat1 V c).arrAt 5 cfg1.N
    = Res (V c main_v39) (V c main_v28_0) (V c main_v12) (V c main_v40) (V c main_arg7) :=
  (dat1 V c).arrAt_eq_of_cover 5 _ (fun t _ => flushed5_eq V c t) cover5

end Cert.KernelIdeal.Region1

end
-- ==== Proof.KernelValue.lean ====
/-
  The idealized kernel's result, entry by entry: the first arrangement of the two mean-aggregation layers.

  The host operations before the first launch give the summed neighbour rows, the column of reciprocal degrees and
  the weights; the first launch gives the hidden array and its projection; the host operations between the
  launches gather the projected rows at the edges' sources and accumulate them at their destinations; the second
  launch gives the result.
-/
import proofs.«153411_j1168231104586_2_alg».proof.Proof.KernelHostIdx
import proofs.«153411_j1168231104586_2_alg».proof.Proof.KernelRegion0
import proofs.«153411_j1168231104586_2_alg».proof.Proof.KernelRegion1

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.LibGraph Cert.KernelIdeal.Host
open Cert.ReferenceIdeal.RefValue (ofBits_one_f32)

/-! ### The arguments by coordinates, and the edge columns -/

variable (m : (ℓ : Loc nD τ sig) → Buf (Elt Ideal) ℓ) (ρ : Dev nD → PrngReg)

abbrev X (c : Dev nD) : Fin 50000 → Fin 128 → EReal := fun n k => (m ((c : Thread nD τ).loc main_arg0) : S50000x128.Idx → EReal) (ix2 n k)
abbrev WL1 (c : Dev nD) : Fin 128 → Fin 256 → EReal := fun k q => (m ((c : Thread nD τ).loc main_arg2) : S128x256.Idx → EReal) (ix2 k q)
abbrev WR1 (c : Dev nD) : Fin 128 → Fin 256 → EReal := fun k q => (m ((c : Thread nD τ).loc main_arg3) : S128x256.Idx → EReal) (ix2 k q)
abbrev B1 (c : Dev nD) : Fin 256 → EReal := fun q => (m ((c : Thread nD τ).loc main_arg4) : S256.Idx → EReal) (ix1 q)
abbrev WL2 (c : Dev nD) : Fin 256 → Fin 64 → EReal := fun k q => (m ((c : Thread nD τ).loc main_arg5) : S256x64.Idx → EReal) (ix2 k q)
abbrev WR2 (c : Dev nD) : Fin 256 → Fin 64 → EReal := fun k q => (m ((c : Thread nD τ).loc main_arg6) : S256x64.Idx → EReal) (ix2 k q)
abbrev B2 (c : Dev nD) : Fin 64 → EReal := fun q => (m ((c : Thread nD τ).loc main_arg7) : S64.Idx → EReal) (ix1 q)
/-- The destination column. -/
abbrev SI (c : Dev nD) : Cert.Sage.EdgeCol := siK (dstW (ei m c))
/-- The source column. -/
abbrev GI (c : Dev nD) : Cert.Sage.EdgeCol := giK (srcW (ei m c))

/-! ### The first launch's arrays -/

/-- The hidden array at `(n, q)` is the first arrangement's hidden layer. -/
theorem hid_apply (c : Dev nD) (n : Fin 50000) (q : Fin 256) :
    Region0.Hid (V1 m ρ c main_v24) (V1 m ρ c main_arg0) (V1 m ρ c main_v12) (V1 m ρ c main_v25) (V1 m ρ c main_v26)
        (V1 m ρ c main_arg4) (ix2 n q)
      = Cert.Sage.hA (X m c) (WL1 m c) (WR1 m c) (B1 m c) (SI m c) (GI m c) n q := by
  show Region0.hid _ _ _ _ _ _ n q = _
  unfold Region0.hid Cert.Sage.hA
  rw [V1_v12, dinvK_apply, V1_arg4, V1_arg0, V1_v25, V1_v26, V1_v24, gather128_eq, scatter128_eq]
  simp only [aggK_apply, Cert.Sage.agg1]

/-- The projected array at `(s, c')`. -/
theorem proj_apply (c : Dev nD) (s : Fin 50000) (c' : Fin 64) :
    Region0.Proj (Region0.Hid (V1 m ρ c main_v24) (V1 m ρ c main_arg0) (V1 m ρ c main_v12) (V1 m ρ c main_v25)
        (V1 m ρ c main_v26) (V1 m ρ c main_arg4)) (V1 m ρ c main_v27) (ix2 s c')
      = Cert.Sage.pA (X m c) (WL1 m c) (WR1 m c) (B1 m c) (WL2 m c) (SI m c) (GI m c) s c' := by
  show ∑ k : Fin 256, Region0.Hid (V1 m ρ c main_v24) (V1 m ρ c main_arg0) (V1 m ρ c main_v12) (V1 m ρ c main_v25)
        (V1 m ρ c main_v26) (V1 m ρ c main_arg4) (ix2 s k) * (V1 m ρ c main_v27 : S256x64.Idx → EReal) (ix2 k c') = _
  unfold Cert.Sage.pA
  rw [V1_v27]
  exact Finset.sum_congr rfl fun k _ => by rw [hid_apply]

/-! ### What the first launch and the earlier host operations leave for the later segments -/

theorem W2_v28_0 (c : Dev nD) : (W2 m ρ c (Proc.devRef .tc main_v28_0) : S50000x256.Idx → EReal)
    = Region0.Hid (V1 m ρ c main_v24) (V1 m ρ c main_arg0) (V1 m ρ c main_v12) (V1 m ρ c main_v25) (V1 m ρ c main_v26)
        (V1 m ρ c main_arg4) :=
  (W2_arr m ρ c 7).trans (Region0.final7 (V1 m ρ) c)

theorem W2_v28_1 (c : Dev nD) : (W2 m ρ c (Proc.devRef .tc main_v28_1) : S50000x64.Idx → EReal)
    = Region0.Proj (Region0.Hid (V1 m ρ c main_v24) (V1 m ρ c main_arg0) (V1 m ρ c main_v12) (V1 m ρ c main_v25)
        (V1 m ρ c main_v26) (V1 m ρ c main_arg4)) (V1 m ρ c main_v27) :=
  (W2_arr m ρ c 8).trans (Region0.final8 (V1 m ρ) c)

theorem W2_v12 (c : Dev nD) : (W2 m ρ c (Proc.devRef .tc main_v12) : S50000x1.Idx → EReal) = V1 m ρ c main_v12 :=
  (W2_arr m ρ c 2).trans (((dat0 (V1 m ρ) c).arrAt_in 2 rfl _).trans (A_eq0 (V1 m ρ) c 2))

theorem W2_v1 (c : Dev nD) : (W2 m ρ c (Proc.devRef .tc main_v1) : S800000.Idx → BitVec 32) = V1 m ρ c main_v1 :=
  W2_of_ne m ρ c main_v1 (by decide)

theorem W2_v3 (c : Dev nD) : (W2 m ρ c (Proc.devRef .tc main_v3) : S800000.Idx → BitVec 32) = V1 m ρ c main_v3 :=
  W2_of_ne m ρ c main_v3 (by decide)

theorem W2_arg6 (c : Dev nD) : (W2 m ρ c (Proc.devRef .tc main_arg6) : S256x64.Idx → EReal) = m ((c : Thread nD τ).loc main_arg6) :=
  (W2_of_ne m ρ c main_arg6 (by decide)).trans (by
    show (V1 m ρ c main_arg6 : S256x64.Idx → EReal) = _
    dsimp only [V1, W1, hostOps0]; after_results)

theorem W2_arg7 (c : Dev nD) : (W2 m ρ c (Proc.devRef .tc main_arg7) : S64.Idx → EReal) = m ((c : Thread nD τ).loc main_arg7) :=
  (W2_of_ne m ρ c main_arg7 (by decide)).trans (by
    show (V1 m ρ c main_arg7 : S64.Idx → EReal) = _
    dsimp only [V1, W1, hostOps0]; after_results)

/-! ### The edge columns are the reference's -/

/-- The destination column is the one the reference accumulates at. -/
theorem si_eq (e : S2x800000.Idx → BitVec 32) : siK (dstW e) = Cert.ReferenceIdeal.Read.val_main_v12 (F := Ideal) e := by
  unfold siK dstW Cert.ReferenceIdeal.Read.val_main_v12 Cert.ReferenceIdeal.Read.val_main_v3 Cert.ReferenceIdeal.Read.val_main_v2
  rfl

/-- The source column is the one the reference gathers at. -/
theorem gi_eq (e : S2x800000.Idx → BitVec 32) : giK (srcW e) = Cert.ReferenceIdeal.Read.val_main_v9 (F := Ideal) e := by
  unfold giK srcW Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_c Cert.ReferenceIdeal.Read.val_main_c_0
    Cert.ReferenceIdeal.Read.val_main_v1 Cert.ReferenceIdeal.Read.val_main_v0
  rfl

end Cert.KernelIdeal.Whole

end
-- ==== Proof.KernelOut.lean ====
/-
  The idealized kernel's result array, entry by entry: after the second launch it is the second body's function of
  what the launch found, and what the launch found is what the earlier segments left.
-/
import proofs.«153411_j1168231104586_2_alg».proof.Proof.KernelValue

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.LibGraph Cert.KernelIdeal.Host
open Cert.ReferenceIdeal.RefValue (ofBits_one_f32)

variable (m : (ℓ : Loc nD τ sig) → Buf (Elt Ideal) ℓ) (ρ : Dev nD → PrngReg)

/-! ### The result -/

/-- After the second launch the result array is the result function of what the launch found. -/
theorem W4_v41 (c : Dev nD) : (W4 m ρ c (Proc.devRef .tc main_v41) : S50000x64.Idx → EReal)
    = Region1.Res (V3 m ρ c main_v39) (V3 m ρ c main_v28_0) (V3 m ρ c main_v12) (V3 m ρ c main_v40) (V3 m ρ c main_arg7) :=
  (W4_arr m ρ c 5).trans (Region1.final5 (V3 m ρ) c)

/-- The result array at `(n, c')` is the first arrangement's result. -/
theorem out_apply (c : Dev nD) (n : Fin 50000) (c' : Fin 64) :
    (W4 m ρ c (Proc.devRef .tc main_v41) : S50000x64.Idx → EReal) (ix2 n c')
      = Cert.Sage.outA (X m c) (WL1 m c) (WR1 m c) (B1 m c) (WL2 m c) (WR2 m c) (B2 m c) (SI m c) (GI m c) n c' := by
  rw [W4_v41]
  show Region1.res _ _ _ _ _ n c' = _
  unfold Region1.res Cert.Sage.outA Cert.Sage.zA
  rw [V3_v39, V3_v40, V3_v28_0, V3_v12, V3_arg7, W2_v28_1, W2_v28_0, W2_v12, W2_v1, W2_v3, W2_arg6, W2_arg7,
    V1_v1, V1_v3, gather64_eq, scatter64_eq, aggK_apply]
  refine congrArg Ideal.logistic ?_
  refine congrArg₂ (· + ·) (congrArg₂ (· + ·) (congrArg₂ (· * ·) ?_ ?_) ?_) rfl
  · unfold Cert.Sage.agg2A
    exact congrArg (0 + ·) (Finset.sum_congr rfl fun e _ => proj_apply m ρ c _ c')
  · rw [V1_v12, dinvK_apply]
  · exact Finset.sum_congr rfl fun k _ => by rw [hid_apply]

end Cert.KernelIdeal.Whole

end
-- ==== Proof.Algebra.lean ====
/-
  The two arrangements of the two mean-aggregation layers agree on real entries.

  Every quantity that enters the comparison is a real number: the degree is a finite sum of ones, the divisor
  is the larger of the degree and one, so it is a real number that is at least one, and dividing by it is
  multiplying by its real reciprocal. Among real numbers, scaling a finite sum of products by a constant can be
  done on one factor of every product, and a sum over edges of a sum over columns is the sum over columns of the
  sum over edges.
-/
import proofs.«153411_j1168231104586_2_alg».proof.Proof.Spec

noncomputable section

open scoped BigOperators

namespace Cert.Sage

open Idealize.ShloMosaic Idealize.ShloMosaic.ValueIdx Cert.LibGraph

/-! ### Real numbers among the extended reals -/

theorem IsReal.zero : IsReal 0 := ⟨0, EReal.coe_zero.symm⟩

theorem IsReal.one : IsReal 1 := ⟨1, EReal.coe_one.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two reals, taken among the extended reals, is the larger of them taken among the reals. -/
theorem coe_max (r s : ℝ) : max (r : EReal) (s : EReal) = ((max r s : ℝ) : EReal) :=
  (EReal.coe_strictMono.monotone.map_max).symm

theorem IsReal.max {a b : EReal} (ha : IsReal a) (hb : IsReal b) : IsReal (max a b) := by
  obtain ⟨r, rfl⟩ := ha
  obtain ⟨s, rfl⟩ := hb
  exact ⟨_, coe_max r s⟩

/-- A finite sum of reals, taken among the extended reals, is their sum taken among the reals. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) :
    IsReal (∑ i ∈ s, f i) := by
  choose g hg using h
  obtain rfl : f = fun i => ((g i : ℝ) : EReal) := funext hg
  exact ⟨_, coe_sum s g⟩

/-! ### The two exchanges, among real numbers -/

/-- Scaling a sum of products by a real constant can be done on the first factor of every product. -/
theorem sum_mul_scale {ι : Type} (s : Finset ι) (a w : ι → EReal) (r : ℝ)
    (ha : ∀ i, IsReal (a i)) (hw : ∀ i, IsReal (w i)) :
    (∑ i ∈ s, a i * w i) * (r : EReal) = ∑ i ∈ s, (a i * (r : EReal)) * w i := by
  choose a' ha' using ha
  choose w' hw' using hw
  obtain rfl : a = fun i => ((a' i : ℝ) : EReal) := funext ha'
  obtain rfl : w = fun i => ((w' i : ℝ) : EReal) := funext hw'
  simp only [← EReal.coe_mul, coe_sum]
  congr 1
  rw [Finset.sum_mul]
  exact Finset.sum_congr rfl fun i _ => by ring

/-- A sum over edges of projected rows, scaled, is the projection of the scaled sum over edges of the rows. -/
theorem sum_sum_scale {ι κ : Type} (s : Finset ι) (t : Finset κ) (h : ι → κ → EReal) (w : κ → EReal) (r : ℝ)
    (hh : ∀ e k, IsReal (h e k)) (hw : ∀ k, IsReal (w k)) :
    (0 + ∑ e ∈ s, ∑ k ∈ t, h e k * w k) * (r : EReal)
      = ∑ k ∈ t, ((0 + ∑ e ∈ s, h e k) * (r : EReal)) * w k := by
  choose h' hh' using hh
  choose w' hw' using hw
  obtain rfl : h = fun e k => ((h' e k : ℝ) : EReal) := funext fun e => funext fun k => hh' e k
  obtain rfl : w = fun k => ((w' k : ℝ) : EReal) := funext hw'
  simp only [zero_add, ← EReal.coe_mul, coe_sum]
  congr 1
  simp only [Finset.sum_mul]
  rw [Finset.sum_comm]
  exact Finset.sum_congr rfl fun k _ => Finset.sum_congr rfl fun e _ => by ring

section
variable (x : Fin 50000 → Fin 128 → EReal) (wl1 wr1 : Fin 128 → Fin 256 → EReal) (b1 : Fin 256 → EReal)
  (wl2 wr2 : Fin 256 → Fin 64 → EReal) (b2 : Fin 64 → EReal) (si gi : EdgeCol)

/-! ### The divisor -/

/-- The divisor of the mean is a nonzero real number. -/
theorem dm_real (n : Fin 50000) : ∃ r : ℝ, r ≠ 0 ∧ dm si n = (r : EReal) := by
  have hd : deg si n = (((∑ _e ∈ into si n, (1 : ℝ)) : ℝ) : EReal) := by
    rw [deg, zero_add, ← coe_sum]
    rfl
  refine ⟨max (∑ _e ∈ into si n, (1 : ℝ)) 1, ?_, ?_⟩
  · exact (lt_of_lt_of_le one_pos (le_max_right _ _)).ne'
  · rw [dm, hd, ← EReal.coe_one, coe_max]

/-- Dividing one by the divisor gives a real number `q`, and dividing anything by the divisor multiplies by `q`. -/
theorem div_dm (n : Fin 50000) :
    ∃ q : ℝ, Ideal.div 1 (dm si n) = (q : EReal) ∧ ∀ a : EReal, Ideal.div a (dm si n) = a * (q : EReal) := by
  obtain ⟨r, hr, hdm⟩ := dm_real si n
  refine ⟨1 / r, ?_, fun a => ?_⟩
  · rw [hdm, Ideal.div_coe hr, one_mul]
  · rw [hdm, Ideal.div_coe hr]

/-! ### The hidden layer -/

theorem agg1_real (hx : ∀ n k, IsReal (x n k)) (n : Fin 50000) (k : Fin 128) : IsReal (agg1 x si gi n k) :=
  IsReal.zero.add (IsReal.sum _ _ fun e => hx (src gi e) k)

/-- The two arrangements of the hidden layer agree. -/
theorem hA_eq_hB (hx : ∀ n k, IsReal (x n k)) (hwl1 : ∀ k c, IsReal (wl1 k c)) (n : Fin 50000) (c : Fin 256) :
    hA x wl1 wr1 b1 si gi n c = hB x wl1 wr1 b1 si gi n c := by
  obtain ⟨q, hq1, hq⟩ := div_dm si n
  have key : (∑ k : Fin 128, agg1 x si gi n k * wl1 k c) * Ideal.div 1 (dm si n)
      = ∑ k : Fin 128, Ideal.div (agg1 x si gi n k) (dm si n) * wl1 k c := by
    rw [hq1, sum_mul_scale _ _ _ q (fun k => agg1_real x si gi hx n k) (fun k => hwl1 k c)]
    exact Finset.sum_congr rfl fun k _ => by rw [hq]
  rw [hA, hB, key]

/-- The hidden layer has real entries. -/
theorem hB_real (hx : ∀ n k, IsReal (x n k)) (hwl1 : ∀ k c, IsReal (wl1 k c)) (hwr1 : ∀ k c, IsReal (wr1 k c))
    (hb1 : ∀ c, IsReal (b1 c)) (n : Fin 50000) (c : Fin 256) : IsReal (hB x wl1 wr1 b1 si gi n c) := by
  obtain ⟨q, _, hq⟩ := div_dm si n
  refine IsReal.max (((IsReal.sum _ _ fun k => ?_).add (IsReal.sum _ _ fun k => (hx n k).mul (hwr1 k c))).add
    (hb1 c)) IsReal.zero
  rw [hq]
  exact ((agg1_real x si gi hx n k).mul ⟨q, rfl⟩).mul (hwl1 k c)

end

/-- On real features, real first-layer weights and bias and a real second-layer left weight, the two arrangements
    give the same result at every node and every output column. -/
theorem outA_eq_outB (x : Fin 50000 → Fin 128 → EReal) (wl1 wr1 : Fin 128 → Fin 256 → EReal) (b1 : Fin 256 → EReal)
    (wl2 wr2 : Fin 256 → Fin 64 → EReal) (b2 : Fin 64 → EReal) (si gi : EdgeCol)
    (hx : ∀ n k, IsReal (x n k)) (hwl1 : ∀ k c, IsReal (wl1 k c)) (hwr1 : ∀ k c, IsReal (wr1 k c))
    (hb1 : ∀ c, IsReal (b1 c)) (hwl2 : ∀ k c, IsReal (wl2 k c)) (n : Fin 50000) (c' : Fin 64) :
    outA x wl1 wr1 b1 wl2 wr2 b2 si gi n c' = outB x wl1 wr1 b1 wl2 wr2 b2 si gi n c' := by
  have hh : hA x wl1 wr1 b1 si gi = hB x wl1 wr1 b1 si gi :=
    funext fun m => funext fun c => hA_eq_hB x wl1 wr1 b1 si gi hx hwl1 m c
  obtain ⟨q, hq1, hq⟩ := div_dm si n
  have key : agg2A x wl1 wr1 b1 wl2 si gi n c' * Ideal.div 1 (dm si n)
      = ∑ k : Fin 256, Ideal.div (agg2B x wl1 wr1 b1 si gi n k) (dm si n) * wl2 k c' := by
    rw [hq1]
    simp only [agg2A, pA, agg2B, hh]
    rw [sum_sum_scale _ _ (fun e k => hB x wl1 wr1 b1 si gi (src gi e) k) (fun k => wl2 k c') q
      (fun e k => hB_real x wl1 wr1 b1 si gi hx hwl1 hwr1 hb1 (src gi e) k) (fun k => hwl2 k c')]
    exact Finset.sum_congr rfl fun k _ => by rw [hq]
  rw [outA, outB, zA, zB, key, hh]

end Cert.Sage

end
-- ==== Proof.Finite.lean ====
/-
  From the precondition to real entries.

  The precondition is the conjunction, over seven of the operands, of the statement that every entry has absolute
  value below plus infinity. On the extended reals the absolute value of `a` is the larger of `a` and `-a`; it is
  below plus infinity exactly when `a` is neither infinity, that is, when `a` is a real number.
-/
import proofs.«153411_j1168231104586_2_alg».proof.Pre_finite_inputs
import proofs.«153411_j1168231104586_2_alg».proof.Proof.Spec
import Idealize.ShloMosaic.Lib.ReduceAll
import Idealize.ShloMosaic.PureOps.Ideal.Laws
import Idealize.ShloMosaic.Lib.ValueIdx

noncomputable section

namespace Cert.Sage

open Idealize.ShloMosaic

/-- The shape without axes has a single index. -/
instance subsingleton_scalar_idx : Subsingleton Cert.Pre_finite_inputs.S_.Idx :=
  ⟨fun _ _ => funext fun d => d.elim0⟩

/-- An extended real whose absolute value compares below plus infinity is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One conjunct of the precondition: if the reduction by `and` of "absolute value below plus infinity" over all
    the entries of `a` is one, then every entry of `a` is a real number. -/
theorem isReal_of_all {s : Shape} {axes : List (Fin s.rank)} (a : FVec Ideal s .f32)
    (dims : Fin Cert.Pre_finite_inputs.S_.rank → Fin s.rank)
    (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf a) (broadcastInDim s dims hb (constant Cert.Pre_finite_inputs.S_ .f32 0x7F800000#32)))
      init hr hu j = 1#1) (i : s.Idx) : IsReal (a i) :=
  isReal_of_abs_lt_inf (a i) (Host.reduce_andi_all _ init hr hu j e i)

/-- Under the precondition, the features, the first layer's two weights and bias and the second layer's left weight
    have real entries. -/
theorem reals_of_pre [Cert.Pre_finite_inputs.Facts] (a0 : FVec Ideal Cert.Pre_finite_inputs.S50000x128 .f32) (a1 : IVec Cert.Pre_finite_inputs.S2x800000 32) (a2 a3 : FVec Ideal Cert.Pre_finite_inputs.S128x256 .f32) (a4 : FVec Ideal Cert.Pre_finite_inputs.S256 .f32) (a5 a6 : FVec Ideal Cert.Pre_finite_inputs.S256x64 .f32) (a7 : FVec Ideal Cert.Pre_finite_inputs.S64 .f32) (h : Cert.Pre_finite_inputs.fn (F := Ideal) a0 a1 a2 a3 a4 a5 a6 a7 = (fun _ => 1#1)) : (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨⟨⟨h3, h7⟩, h12⟩, h17⟩, h22⟩, _⟩, _⟩ := h0
  exact ⟨isReal_of_all a0 _ _ _ _ _ _ h3, isReal_of_all a2 _ _ _ _ _ _ h7, isReal_of_all a3 _ _ _ _ _ _ h12,
    isReal_of_all a4 _ _ _ _ _ _ h17, isReal_of_all a5 _ _ _ _ _ _ h22⟩

end Cert.Sage

end
-- ==== Proof.lean ====
/-
  Two layers of mean aggregation over an edge list (a graph on 50000 nodes with 800000 edges), a Pallas kernel
  program against its jnp reference, at the ideal instance (every float an extended real).

  The reference computes each layer as: gather the neighbours' rows, sum them per destination node, divide by the
  degree (or by one for a node without in-edges), multiply by the left weight, add the node's own row times the
  right weight and the bias; a maximum against zero after the first layer, the logistic function after the second.
  The kernel program multiplies the summed rows by the left weight first and scales by the reciprocal degree
  afterwards, and in the second layer projects the hidden rows by the left weight BEFORE gathering and summing them.
  On real entries the two are one function: scaling a row commutes with a matrix product, and summing rows commutes
  with projecting them (Proof/Algebra.lean). The precondition makes every float input real (Proof/Finite.lean).
  The kernel program's result is read off its run segment by segment (Proof/KernelRun.lean, KernelHost.lean,
  KernelHostIdx.lean, KernelRegion0.lean, KernelRegion1.lean, KernelValue.lean, KernelOut.lean); the reference's off its run stage by stage
  (Proof/RefValue.lean). Both runs end with the second arrangement's value (Proof/Spec.lean) at every entry.
-/
import proofs.«153411_j1168231104586_2_alg».proof.Defs
import proofs.«153411_j1168231104586_2_alg».proof.Proof.Gen.Kernel
import proofs.«153411_j1168231104586_2_alg».proof.Proof.Gen.Kernel.Skeleton
import proofs.«153411_j1168231104586_2_alg».proof.Proof.Gen.Kernel.Launch
import proofs.«153411_j1168231104586_2_alg».proof.Proof.Gen.Kernel.Points
import proofs.«153411_j1168231104586_2_alg».proof.Proof.Gen.Kernel.Frame
import proofs.«153411_j1168231104586_2_alg».proof.Proof.Gen.KernelIdeal
import proofs.«153411_j1168231104586_2_alg».proof.Proof.Gen.KernelIdeal.Skeleton
import proofs.«153411_j1168231104586_2_alg».proof.Proof.Gen.KernelIdeal.Launch
import proofs.«153411_j1168231104586_2_alg».proof.Proof.Gen.KernelIdeal.Points
import proofs.«153411_j1168231104586_2_alg».proof.Proof.Gen.KernelIdeal.Frame
import proofs.«153411_j1168231104586_2_alg».proof.Proof.Gen.ReferenceIdeal
import proofs.«153411_j1168231104586_2_alg».proof.Proof.Gen.ReferenceIdeal.Run
import proofs.«153411_j1168231104586_2_alg».proof.Proof.Gen.ReferenceIdeal.Read
import proofs.«153411_j1168231104586_2_alg».proof.Proof.Gen.Pre_finite_inputs
import proofs.«153411_j1168231104586_2_alg».proof.Proof.KernelRun
import proofs.«153411_j1168231104586_2_alg».proof.Proof.KernelValue
import proofs.«153411_j1168231104586_2_alg».proof.Proof.KernelOut
import proofs.«153411_j1168231104586_2_alg».proof.Proof.RefValue
import proofs.«153411_j1168231104586_2_alg».proof.Proof.Algebra
import proofs.«153411_j1168231104586_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for the ideal reading. -/
theorem preserves : Cert.preserves_Kernel_KernelIdeal := trivial

/-- Both runs end with the second arrangement's value at every entry of the result: the kernel program's run ends
    with the first arrangement's value, equal to the second's on the real inputs the precondition gives; the
    reference's run ends with the second arrangement's value of the same arguments. -/
theorem algebraic : Cert.algebraic_KernelIdeal_ReferenceIdeal := by
  intro m ρ m' ρ' hpre hagree
  refine ⟨fun c => fun i : Cert.KernelIdeal.S50000x64.Idx =>
    Cert.Sage.outB (Cert.KernelIdeal.Whole.X m c) (Cert.KernelIdeal.Whole.WL1 m c) (Cert.KernelIdeal.Whole.WR1 m c)
      (Cert.KernelIdeal.Whole.B1 m c) (Cert.KernelIdeal.Whole.WL2 m c) (Cert.KernelIdeal.Whole.WR2 m c)
      (Cert.KernelIdeal.Whole.B2 m c)
      (Cert.ReferenceIdeal.Read.val_main_v12 (F := Ideal) (Cert.KernelIdeal.Host.ei m c))
      (Cert.ReferenceIdeal.Read.val_main_v9 (F := Ideal) (Cert.KernelIdeal.Host.ei m c)) (i 0) (i 1), ?_, ?_⟩
  · refine (θ_run Cert.KernelIdeal.defs _ _).mono (fun r h c => ⟨(h c).1.trans ?_, (h c).2⟩)
      (Cert.KernelIdeal.RunAll.run_out m ρ)
    obtain ⟨h0, h2, h3, h4, h5⟩ := Cert.Sage.reals_of_pre _ _ _ _ _ _ _ _ (hpre c)
    funext i
    obtain ⟨n, c', rfl⟩ : ∃ (n : Fin 50000) (c' : Fin 64), i = ix2 n c' := ⟨i 0, i 1, eq_ix2 i⟩
    rw [Cert.KernelIdeal.Whole.out_apply]
    show Cert.Sage.outA _ _ _ _ _ _ _ (Cert.KernelIdeal.Host.siK (Cert.KernelIdeal.Host.dstW (Cert.KernelIdeal.Host.ei m c)))
      (Cert.KernelIdeal.Host.giK (Cert.KernelIdeal.Host.srcW (Cert.KernelIdeal.Host.ei m c))) n c' = _
    rw [Cert.KernelIdeal.Whole.si_eq, Cert.KernelIdeal.Whole.gi_eq]
    exact Cert.Sage.outA_eq_outB _ _ _ _ _ _ _ _ _ (fun n k => h0 (ix2 n k)) (fun k q => h2 (ix2 k q))
      (fun k q => h3 (ix2 k q)) (fun q => h4 (ix1 q)) (fun k q => h5 (ix2 k q)) n c'
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v60_eq]
    obtain ⟨e0, e1, e2, e3, e4, e5, e6, e7⟩ := hagree c
    rw [e0, e1, e2, e3, e4, e5, e6, e7]
    funext i
    obtain ⟨n, c', rfl⟩ : ∃ (n : Fin 50000) (c' : Fin 64), i = ix2 n c' := ⟨i 0, i 1, eq_ix2 i⟩
    exact Cert.ReferenceIdeal.RefValue.ref_value _ _ _ _ _ _ _ _ n c'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
